-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x8 : Shape := ⟨2, ![1600000, 8]⟩
abbrev S32x64 : Shape := ⟨2, ![32, 64]⟩
abbrev S64 : Shape := ⟨1, ![64]⟩
abbrev S64x64 : Shape := ⟨2, ![64, 64]⟩
abbrev S136x64 : Shape := ⟨2, ![136, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S136x64 : S_.BroadcastsInDim S136x64 (![] : Fin 0 → Fin S136x64.rank)
  reducesTo_S136x64_S_d0_1 : S136x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S32 .f32) (main_arg13 : FVec F S32x1 .f32) (main_arg14 : FVec F S1 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x1 .f32 := Host.absf main_arg13
  let main_cst_22 : FVec F S_ .f32 := constant S_ .f32 0x7F800000#32
  let main_v60 : FVec F S32x1 .f32 := broadcastInDim S32x1 ![] bcast_S_S32x1 main_cst_22
  let main_v61 : IVec S32x1 1 := cmpf .olt main_v59 main_v60
  let main_c_23 : IVec S_ 1 := constantI S_ 1 1#1
  let main_v62 : IVec S_ 1 := (fun x v => Host.reduce IntOp.andi x v reducesTo_S32x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg8 : FVec F S64 .f32) (main_arg9 : FVec F S136x64 .f32) (main_arg10 : FVec F S64 .f32) (main_arg11 : FVec F S64x32 .f32) (main_arg12 : FVec F S32 .f32) (main_arg13 : FVec F S32x1 .f32) (main_arg14 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S136x64 .f32 := Host.absf main_arg9
  let main_cst_14 : FVec F S_ .f32 := constant S_ .f32 0x7F800000#32
  let main_v40 : FVec F S136x64 .f32 := broadcastInDim S136x64 ![] bcast_S_S136x64 main_cst_14
  let main_v41 : IVec S136x64 1 := cmpf .olt main_v39 main_v40
  let main_c_15 : IVec S_ 1 := constantI S_ 1 1#1
  let main_v42 : IVec S_ 1 := (fun x v => Host.reduce IntOp.andi x v reducesTo_S136x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg11
  let main_cst_18 : FVec F S_ .f32 := constant S_ .f32 0x7F800000#32
  let main_v50 : FVec F S64x32 .f32 := broadcastInDim S64x32 ![] bcast_S_S64x32 main_cst_18
  fn_part3 (F := F) main_arg12 main_arg13 main_arg14 main_v48 main_v49 main_v50

def fn_part1 {F : FTy → Type} [FloatOps F] (main_arg5 : FVec F S64x64 .f32) (main_arg6 : FVec F S64 .f32) (main_arg7 : FVec F S64x64 .f32) (main_arg8 : FVec F S64 .f32) (main_arg9 : FVec F S136x64 .f32) (main_arg10 : FVec F S64 .f32) (main_arg11 : FVec F S64x32 .f32) (main_arg12 : FVec F S32 .f32) (main_arg13 : FVec F S32x1 .f32) (main_arg14 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x32 .f32) (main_arg1 : IVec S2x1600000 32) (main_arg2 : FVec F S1600000x8 .f32) (main_arg3 : FVec F S32x64 .f32) (main_arg4 : FVec F S64 .f32) (main_arg5 : FVec F S64x64 .f32) (main_arg6 : FVec F S64 .f32) (main_arg7 : FVec F S64x64 .f32) (main_arg8 : FVec F S64 .f32) (main_arg9 : FVec F S136x64 .f32) (main_arg10 : FVec F S64 .f32) (main_arg11 : FVec F S64x32 .f32) (main_arg12 : FVec F S32 .f32) (main_arg13 : FVec F S32x1 .f32) (main_arg14 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x8 .f32 := Host.absf main_arg2
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x32 : Shape := ⟨2, ![100000, 32]⟩
abbrev S2x1600000 : Shape := ⟨2, ![2, 1600000]⟩
abbrev S1600000x8 : Shape := ⟨2, ![1600000, 8]⟩
abbrev S32x64 : Shape := ⟨2, ![32, 64]⟩
abbrev S64 : Shape := ⟨1, ![64]⟩
abbrev S64x64 : Shape := ⟨2, ![64, 64]⟩
abbrev S136x64 : Shape := ⟨2, ![136, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x32 : Shape := ⟨2, ![5000, 32]⟩
abbrev S5000x64 : Shape := ⟨2, ![5000, 64]⟩
abbrev S1600000x64 : Shape := ⟨2, ![1600000, 64]⟩
abbrev S5000x1 : Shape := ⟨2, ![5000, 1]⟩
abbrev S1x64 : Shape := ⟨2, ![1, 64]⟩
abbrev S8x64 : Shape := ⟨2, ![8, 64]⟩
abbrev S8000x64 : Shape := ⟨2, ![8000, 64]⟩
abbrev S8000x8 : Shape := ⟨2, ![8000, 8]⟩
abbrev S8000x1 : Shape := ⟨2, ![8000, 1]⟩
abbrev S8000x32 : Shape := ⟨2, ![8000, 32]⟩
abbrev S1x32 : Shape := ⟨2, ![1, 32]⟩
abbrev S1x1 : Shape := ⟨2, ![1, 1]⟩

abbrev nBuf : Space → Nat
  | .hbm => 131
  | .vmem => 56
  | .smem => 0
  | _ => 0

abbrev hbmTy0_0 (i : Nat) : BufTy := match i % 128 with
  | 0 => ⟨S100000x32, .f32⟩
  | 1 => ⟨S2x1600000, .i32⟩
  | 2 => ⟨S1600000x8, .f32⟩
  | 3 => ⟨S32x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S136x64, .f32⟩
  | 10 => ⟨S64, .f32⟩
  | 11 => ⟨S64x32, .f32⟩
  | 12 => ⟨S32, .f32⟩
  | 13 => ⟨S32x1, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S100000, .f32⟩
  | 30 => ⟨S100000x1, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S100000x64, .f32⟩
  | 51 => ⟨S100000x64, .bf16⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .bf16⟩
  | 61 => ⟨S1600000x64, .f32⟩
  | 62 => ⟨S1600000x1, .f32⟩
  | 63 => ⟨S1600000x64, .f32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S100000x64, .f32⟩
  | 70 => ⟨S100000x64, .bf16⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x64, .bf16⟩
  | 80 => ⟨S1600000x64, .f32⟩
  | 81 => ⟨S1600000x1, .f32⟩
  | 82 => ⟨S1600000x64, .f32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S100000x64, .f32⟩
  | 89 => ⟨S100000x64, .bf16⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x64, .bf16⟩
  | 99 => ⟨S1600000x64, .f32⟩
  | 100 => ⟨S1600000x1, .f32⟩
  | 101 => ⟨S1600000x64, .f32⟩
  | 102 => ⟨S1600000x64, .f32⟩
  | 103 => ⟨S_, .f32⟩
  | 104 => ⟨S100000x64, .f32⟩
  | 105 => ⟨S1600000x1, .i32⟩
  | 106 => ⟨S100000x64, .f32⟩
  | 107 => ⟨S100000x64, .bf16⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x64, .bf16⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .bf16⟩
  | 126 => ⟨S1600000x8, .bf16⟩
  | 127 => ⟨S64x64, .f32⟩
  | _ => ⟨S100000x32, .f32⟩

abbrev hbmTy0_1 (i : Nat) : BufTy := match i % 128 with
  | 0 => ⟨S64x64, .f32⟩
  | 1 => ⟨S8x64, .f32⟩
  | 2 => ⟨S1600000x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S5000x64, .f32⟩
  | .local _ .vmem, ⟨4, _⟩ => ⟨S5000x64, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .bf16⟩
  | .local _ .vmem, ⟨18, _⟩ => ⟨S5000x64, .bf16⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S64, .f32⟩
  | .local _ .vmem, ⟨26, _⟩ => ⟨S64x64, .f32⟩
  | .local _ .vmem, ⟨27, _⟩ => ⟨S5000x64, .f32⟩
  | .local _ .vmem, ⟨28, _⟩ => ⟨S5000x64, .f32⟩
  | .local _ .vmem, ⟨29, _⟩ => ⟨S5000x64, .bf16⟩
  | .local _ .vmem, ⟨30, _⟩ => ⟨S5000x64, .bf16⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x1, .f32⟩
  | .local _ .vmem, ⟨36, _⟩ => ⟨S5000x1, .f32⟩
  | .local _ .vmem, ⟨37, _⟩ => ⟨S64, .f32⟩
  | .local _ .vmem, ⟨38, _⟩ => ⟨S5000x64, .bf16⟩
  | .local _ .vmem, ⟨39, _⟩ => ⟨S5000x64, .bf16⟩
  | .local _ .vmem, ⟨40, _⟩ => ⟨S8000x64, .bf16⟩
  | .local _ .vmem, ⟨41, _⟩ => ⟨S8000x64, .bf16⟩
  | .local _ .vmem, ⟨42, _⟩ => ⟨S8000x64, .bf16⟩
  | .local _ .vmem, ⟨43, _⟩ => ⟨S8000x64, .bf16⟩
  | .local _ .vmem, ⟨44, _⟩ => ⟨S8000x8, .bf16⟩
  | .local _ .vmem, ⟨45, _⟩ => ⟨S8000x8, .bf16⟩
  | .local _ .vmem, ⟨46, _⟩ => ⟨S64x64, .f32⟩
  | .local _ .vmem, ⟨47, _⟩ => ⟨S64x64, .f32⟩
  | .local _ .vmem, ⟨48, _⟩ => ⟨S8x64, .f32⟩
  | .local _ .vmem, ⟨49, _⟩ => ⟨S64, .f32⟩
  | .local _ .vmem, ⟨50, _⟩ => ⟨S64x32, .f32⟩
  | .local _ .vmem, ⟨51, _⟩ => ⟨S32, .f32⟩
  | .local _ .vmem, ⟨52, _⟩ => ⟨S32x1, .f32⟩
  | .local _ .vmem, ⟨53, _⟩ => ⟨S1, .f32⟩
  | .local _ .vmem, ⟨54, _⟩ => ⟨S8000x1, .f32⟩
  | .local _ .vmem, ⟨55, _⟩ => ⟨S8000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28_0 : Ref sig .tc := ⟨.hbm, 50, rfl⟩
abbrev main_v28_1 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43_0 : Ref sig .tc := ⟨.hbm, 69, rfl⟩
abbrev main_v43_1 : Ref sig .tc := ⟨.hbm, 70, rfl⟩
abbrev main_c_8 : Ref sig .tc := ⟨.hbm, 71, rfl⟩
abbrev main_v44 : Ref sig .tc := ⟨.hbm, 72, rfl⟩
abbrev main_v45 : Ref sig .tc := ⟨.hbm, 73, rfl⟩
abbrev main_c_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58_0 : Ref sig .tc := ⟨.hbm, 88, rfl⟩
abbrev main_v58_1 : Ref sig .tc := ⟨.hbm, 89, rfl⟩
abbrev main_c_11 : Ref sig .tc := ⟨.hbm, 90, rfl⟩
abbrev main_v59 : Ref sig .tc := ⟨.hbm, 91, rfl⟩
abbrev main_v60 : Ref sig .tc := ⟨.hbm, 92, rfl⟩
abbrev main_c_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_14 : Ref sig .tc := ⟨.hbm, 108, rfl⟩
abbrev main_v74 : Ref sig .tc := ⟨.hbm, 109, rfl⟩
abbrev main_v75 : Ref sig .tc := ⟨.hbm, 110, rfl⟩
abbrev main_c_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_16 : Ref sig .tc := ⟨.hbm, 117, rfl⟩
abbrev main_v81 : Ref sig .tc := ⟨.hbm, 118, rfl⟩
abbrev main_v82 : Ref sig .tc := ⟨.hbm, 119, rfl⟩
abbrev main_c_17 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg4_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg7_0 : Ref sig .tc := ⟨.vmem, 50, rfl⟩
abbrev cc4_stg8_0 : Ref sig .tc := ⟨.vmem, 51, rfl⟩
abbrev cc4_stg9_0 : Ref sig .tc := ⟨.vmem, 52, rfl⟩
abbrev cc4_stg10_0 : Ref sig .tc := ⟨.vmem, 53, rfl⟩
abbrev cc4_stg11_0 : Ref sig .tc := ⟨.vmem, 54, rfl⟩
abbrev cc4_stg11_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem5_1 : DmaSem sig := 28
abbrev cc2_sem6_0 : DmaSem sig := 29
abbrev cc2_sem6_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem4_0 : DmaSem sig := 47
abbrev cc4_sem5_0 : DmaSem sig := 48
abbrev cc4_sem6_0 : DmaSem sig := 49
abbrev cc4_sem7_0 : DmaSem sig := 50
abbrev cc4_sem8_0 : DmaSem sig := 51
abbrev cc4_sem9_0 : DmaSem sig := 52
abbrev cc4_sem10_0 : DmaSem sig := 53
abbrev cc4_sem11_0 : DmaSem sig := 54
abbrev cc4_sem11_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x64 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x8 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S8x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S32 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S32x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S8000x1 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S64_S64_0 : ∀ a, (![0] : Fin 1 → Nat) a + S64.size a ≤ S64.size a
  h_S64 : 0 < S64.numel
  broadcasts_S5000x1_S5000x64 : S5000x1.Broadcasts S5000x64
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  slices_S136x64_S64x64_0_0 : S136x64.Slices ![0, 0] S64x64
  slices_S136x64_S64x64_64_0 : S136x64.Slices ![64, 0] S64x64
  slices_S136x64_S8x64_128_0 : S136x64.Slices ![128, 0] S8x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x8_S8000x8_0_0 : ∀ a, (![0, 0] : Fin 2 → Nat) a + S8000x8.size a ≤ S8000x8.size a
  h_S8000x8 : 0 < S8000x8.numel
  shapeCasts_S8000x8_S8000x8 : S8000x8.ShapeCasts S8000x8
  shapeCasts_S64x64_S64x64 : S64x64.ShapeCasts S64x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  broadcasts_S1x64_S8000x64 : S1x64.Broadcasts S8000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S8000x32 : S1x32.Broadcasts S8000x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S8000x64_S64x64_S8000x64_1_0_0_1_n_n_wf : DotDims.WF S8000x64 S64x64 S8000x64 [1] [0] [0] [1] [] []
  dot_S8000x8_S8x64_S8000x64_1_0_0_1_n_n_wf : DotDims.WF S8000x8 S8x64 S8000x64 [1] [0] [0] [1] [] []
  dot_S8000x64_S64x32_S8000x32_1_0_0_1_n_n_wf : DotDims.WF S8000x64 S64x32 S8000x32 [1] [0] [0] [1] [] []
  dot_S8000x32_S32x1_S8000x1_1_0_0_1_n_n_wf : DotDims.WF S8000x32 S32x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .bf16 = 32 ∨ (Rect.block (s := S100000x64) S5000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .bf16 = 32 ∨ (Rect.block (s := S100000x64) S5000x64.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .bf16 = 32 ∨ (Rect.block (s := S100000x64) S5000x64.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S1600000x64.size a
  hwx4_0 : ∀ i : grid4.Coords, EltTy.bits .bf16 = 32 ∨ (Rect.block (s := S1600000x64) S8000x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S1600000x64.size a
  hwx4_1 : ∀ i : grid4.Coords, EltTy.bits .bf16 = 32 ∨ (Rect.block (s := S1600000x64) S8000x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x8.size a ≤ S1600000x8.size a
  hwx4_2 : ∀ i : grid4.Coords, EltTy.bits .bf16 = 32 ∨ (Rect.block (s := S1600000x8) S8000x8.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S8x64.size a ≤ S8x64.size a
  hwx4_5 : ∀ i : grid4.Coords, EltTy.bits .f32 = 32 ∨ (Rect.block (s := S8x64) S8x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64.size a ≤ S64.size a
  hwx4_6 : ∀ i : grid4.Coords, EltTy.bits .f32 = 32 ∨ (Rect.block (s := S64) S64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x32.size a ≤ S64x32.size a
  hwx4_7 : ∀ i : grid4.Coords, EltTy.bits .f32 = 32 ∨ (Rect.block (s := S64x32) S64x32.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S32.size a ≤ S32.size a
  hwx4_8 : ∀ i : grid4.Coords, EltTy.bits .f32 = 32 ∨ (Rect.block (s := S32) S32.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S32x1.size a ≤ S32x1.size a
  hwx4_9 : ∀ i : grid4.Coords, EltTy.bits .f32 = 32 ∨ (Rect.block (s := S32x1) S32x1.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1.size a ≤ S1.size a
  hwx4_10 : ∀ i : grid4.Coords, EltTy.bits .f32 = 32 ∨ (Rect.block (s := S1) S1.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S8000x1.size a ≤ S1600000x1.size a
  hwx4_11 : ∀ i : grid4.Coords, EltTy.bits .f32 = 32 ∨ (Rect.block (s := S1600000x1) S8000x1.size (cc4_transform_11 i) (hinb4_11 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x8_S8x64_S8000x64_1_0_0_1_n_n : DotDims S8000x8 S8x64 S8000x64 where
  lhsContracting := [1]
  rhsContracting := [0]
  lhsNonContracting := [0]
  rhsNonContracting := [1]
  lhsBatch := []
  rhsBatch := []
  wf := dot_S8000x8_S8x64_S8000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def dot_S8000x32_S32x1_S8000x1_1_0_0_1_n_n : DotDims S8000x32 S32x1 S8000x1 where
  lhsContracting := [1]
  rhsContracting := [0]
  lhsNonContracting := [0]
  rhsNonContracting := [1]
  lhsBatch := []
  rhsBatch := []
  wf := dot_S8000x32_S32x1_S8000x1_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28_0) S5000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28_1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v43_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v58_1) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v80) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v88) S8000x8.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v89) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91) S8x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg10) S64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg11) S64x32.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg12) S32.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg13) S32x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg14) S1.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v92) S8000x1.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x8 : Shape := ⟨2, ![1600000, 8]⟩
abbrev S32x64 : Shape := ⟨2, ![32, 64]⟩
abbrev S64 : Shape := ⟨1, ![64]⟩
abbrev S64x64 : Shape := ⟨2, ![64, 64]⟩
abbrev S136x64 : Shape := ⟨2, ![136, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S1600000x136 : Shape := ⟨2, ![1600000, 136]⟩
abbrev S1600000x32 : Shape := ⟨2, ![1600000, 32]⟩
abbrev S1x32 : Shape := ⟨2, ![1, 32]⟩
abbrev S1x1 : Shape := ⟨2, ![1, 1]⟩

abbrev nBuf : Space → Nat
  | .hbm => 207
  | .vmem => 0
  | .smem => 0
  | _ => 0

abbrev hbmTy0_0 (i : Nat) : BufTy := match i % 128 with
  | 0 => ⟨S100000x32, .f32⟩
  | 1 => ⟨S2x1600000, .i32⟩
  | 2 => ⟨S1600000x8, .f32⟩
  | 3 => ⟨S32x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S136x64, .f32⟩
  | 10 => ⟨S64, .f32⟩
  | 11 => ⟨S64x32, .f32⟩
  | 12 => ⟨S32, .f32⟩
  | 13 => ⟨S32x1, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S100000x64, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S1600000x1, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x64, .f32⟩
  | 59 => ⟨S1600000x64, .f32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S100000, .f32⟩
  | 66 => ⟨S100000x1, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000, .f32⟩
  | 95 => ⟨S1600000, .f32⟩
  | 96 => ⟨S1600000x1, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x64, .f32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S100000, .f32⟩
  | 113 => ⟨S100000x1, .f32⟩
  | 114 => ⟨S100000x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S100000x64, .f32⟩
  | 124 => ⟨S_, .i32⟩
  | 125 => ⟨S1600000, .i32⟩
  | 126 => ⟨S1600000, .i1⟩
  | 127 => ⟨S_, .i32⟩
  | _ => ⟨S100000x32, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000, .f32⟩
  | 14 => ⟨S1600000, .f32⟩
  | 15 => ⟨S1600000x1, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x64, .f32⟩
  | 25 => ⟨S1600000x64, .f32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S100000, .f32⟩
  | 32 => ⟨S100000x1, .f32⟩
  | 33 => ⟨S100000x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x64, .f32⟩
  | 60 => ⟨S1600000x136, .f32⟩
  | 61 => ⟨S1600000x64, .f32⟩
  | 62 => ⟨S1x64, .f32⟩
  | 63 => ⟨S1600000x64, .f32⟩
  | 64 => ⟨S1600000x64, .f32⟩
  | 65 => ⟨S_, .f32⟩
  | 66 => ⟨S1600000x64, .f32⟩
  | 67 => ⟨S1600000x64, .f32⟩
  | 68 => ⟨S1600000x32, .f32⟩
  | 69 => ⟨S1x32, .f32⟩
  | 70 => ⟨S1600000x32, .f32⟩
  | 71 => ⟨S1600000x32, .f32⟩
  | 72 => ⟨S_, .f32⟩
  | 73 => ⟨S1600000x32, .f32⟩
  | 74 => ⟨S1600000x32, .f32⟩
  | 75 => ⟨S1600000x1, .f32⟩
  | 76 => ⟨S1x1, .f32⟩
  | 77 => ⟨S1600000x1, .f32⟩
  | 78 => ⟨S1600000x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call0_cst : Ref sig .tc := ⟨.hbm, 73, rfl⟩
abbrev main_call0_v0 : Ref sig .tc := ⟨.hbm, 74, rfl⟩
abbrev main_v48 : Ref sig .tc := ⟨.hbm, 75, rfl⟩
abbrev main_v49 : Ref sig .tc := ⟨.hbm, 76, rfl⟩
abbrev main_c_8 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_10 : Ref sig .tc := ⟨.hbm, 86, rfl⟩
abbrev main_v57 : Ref sig .tc := ⟨.hbm, 87, rfl⟩
abbrev main_v58 : Ref sig .tc := ⟨.hbm, 88, rfl⟩
abbrev main_c_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_12 : Ref sig .tc := ⟨.hbm, 97, rfl⟩
abbrev main_v66 : Ref sig .tc := ⟨.hbm, 98, rfl⟩
abbrev main_v67 : Ref sig .tc := ⟨.hbm, 99, rfl⟩
abbrev main_c_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_call1_cst : Ref sig .tc := ⟨.hbm, 120, rfl⟩
abbrev main_call1_v0 : Ref sig .tc := ⟨.hbm, 121, rfl⟩
abbrev main_v86 : Ref sig .tc := ⟨.hbm, 122, rfl⟩
abbrev main_v87 : Ref sig .tc := ⟨.hbm, 123, rfl⟩
abbrev main_c_15 : Ref sig .tc := ⟨.hbm, 124, rfl⟩
abbrev main_v88 : Ref sig .tc := ⟨.hbm, 125, rfl⟩
abbrev main_v89 : Ref sig .tc := ⟨.hbm, 126, rfl⟩
abbrev main_c_16 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_17 : Ref sig .tc := ⟨.hbm, 133, rfl⟩
abbrev main_v95 : Ref sig .tc := ⟨.hbm, 134, rfl⟩
abbrev main_v96 : Ref sig .tc := ⟨.hbm, 135, rfl⟩
abbrev main_c_18 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_19 : Ref sig .tc := ⟨.hbm, 144, rfl⟩
abbrev main_v104 : Ref sig .tc := ⟨.hbm, 145, rfl⟩
abbrev main_v105 : Ref sig .tc := ⟨.hbm, 146, rfl⟩
abbrev main_c_20 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_21 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_call2_cst : Ref sig .tc := ⟨.hbm, 167, rfl⟩
abbrev main_call2_v0 : Ref sig .tc := ⟨.hbm, 168, rfl⟩
abbrev main_v124 : Ref sig .tc := ⟨.hbm, 169, rfl⟩
abbrev main_c_22 : Ref sig .tc := ⟨.hbm, 170, rfl⟩
abbrev main_v125 : Ref sig .tc := ⟨.hbm, 171, rfl⟩
abbrev main_v126 : Ref sig .tc := ⟨.hbm, 172, rfl⟩
abbrev main_c_23 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_c_24 : Ref sig .tc := ⟨.hbm, 179, rfl⟩
abbrev main_v132 : Ref sig .tc := ⟨.hbm, 180, rfl⟩
abbrev main_v133 : Ref sig .tc := ⟨.hbm, 181, rfl⟩
abbrev main_c_25 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_call3_cst : Ref sig .tc := ⟨.hbm, 193, rfl⟩
abbrev main_call3_v0 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_call4_cst : Ref sig .tc := ⟨.hbm, 200, rfl⟩
abbrev main_call4_v0 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S1600000x64_S1600000x64_S1600000x8_S1600000x136_d1 : Shape.Concatenates [S1600000x64, S1600000x64, S1600000x8] S1600000x136 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  scatter_S100000_S1600000x1_S1600000_n_0_0_1_wf : ScatterDims.WF S100000 S1600000x1 S1600000 [] [0] [0] 1
  dot_S100000x32_S32x64_S100000x64_1_0_0_1_n_n_wf : DotDims.WF S100000x32 S32x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S1600000x136_S136x64_S1600000x64_1_0_0_1_n_n_wf : DotDims.WF S1600000x136 S136x64 S1600000x64 [1] [0] [0] [1] [] []
  dot_S1600000x64_S64x32_S1600000x32_1_0_0_1_n_n_wf : DotDims.WF S1600000x64 S64x32 S1600000x32 [1] [0] [0] [1] [] []
  dot_S1600000x32_S32x1_S1600000x1_1_0_0_1_n_n_wf : DotDims.WF S1600000x32 S32x1 S1600000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x136_S136x64_S1600000x64_1_0_0_1_n_n : DotDims S1600000x136 S136x64 S1600000x64 where
  lhsContracting := [1]
  rhsContracting := [0]
  lhsNonContracting := [0]
  rhsNonContracting := [1]
  lhsBatch := []
  rhsBatch := []
  wf := dot_S1600000x136_S136x64_S1600000x64_1_0_0_1_n_n_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def dot_S1600000x32_S32x1_S1600000x1_1_0_0_1_n_n : DotDims S1600000x32 S32x1 S1600000x1 where
  lhsContracting := [1]
  rhsContracting := [0]
  lhsNonContracting := [0]
  rhsNonContracting := [1]
  lhsBatch := []
  rhsBatch := []
  wf := dot_S1600000x32_S32x1_S1600000x1_1_0_0_1_n_n_wf

class Facts : Prop extends Facts₀ where

variable [Facts]
-- ==== Proof.KernelRun.lean ====
/-
  The kernel program's run, with the contents of its result buffer.

  Every weakly fair execution of the program on the TensorCores terminates without fault; in every final state the
  result buffer holds the last boundary's contents of the fold through the program's segments, and every argument
  array is as launched.
-/
import proofs.«130208_j24927990186114_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the program on the TensorCores terminates,
    nothing faulting; every final state has the result buffer at the contents the last segment boundary names, and
    the argument arrays as launched. -/
theorem run : θ_run defs (onTc (τ := τ) (main (F := F))) ⟨m, fun _ => 0, ρ⟩ (fun r => ∀ c : Dev nD,
      r.2.mem ((c.tc : Thread nD τ).loc main_v92) = Gen.W10 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v92 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KernelIdeal.RunValue

end
-- ==== Proof.Stages.lean ====
/-
  The value both programs compute, stage by stage, as functions on the extended reals.

  A graph convolution layer sends node features H (one row per node) to
    relu (AGG + (H·W) * d² + b)
  where AGG is the normalised neighbour sum (computed on the host by a gather and a scatter-add, the same
  operations in both programs), d² the squared inverse root degree of the row's node and b the bias of the column.
  The stages below are the dense parts: a row of a matrix product is a sum over the contracted axis, the
  activation is pointwise in the row, and the edge network is three such products with two activations.
  Nothing here mentions a program: the arrays are functions from literal index types to EReal.
-/
import Idealize.ShloMosaic.PureOps.Ideal
import Idealize.ShloMosaic.Lib.ValueIdx

noncomputable section

namespace Cert.Stages

open Idealize.ShloMosaic Idealize.ShloMosaic.ValueIdx

/-- A matrix with `a` rows and `b` columns of extended reals. -/
abbrev Mat (a b : Nat) : Type := (⟨2, ![a, b]⟩ : Shape).Idx → EReal
/-- A vector of `a` extended reals. -/
abbrev Vc (a : Nat) : Type := (⟨1, ![a]⟩ : Shape).Idx → EReal

/-- The zero of the activations' maximum: the all-zero word read as a real. -/
abbrev zeroWord : EReal := Ideal.ofBits .f32 0x00000000#32

/-- Rows of `A` times `W`: entry (r, j) is the sum over k of A(r, k) · W(k, j). -/
def rowsTimes {n K N : Nat} (A : Mat n K) (W : Mat K N) : Mat n N :=
  fun i => ∑ k : Fin K, A (ix2 (i 0) k) * W (ix2 k (i 1))

/-- The activation of a graph convolution layer at entry (r, j):
    relu ((AGG(r, j) + HW(r, j) · D2(r, 0)) + B(j)). -/
def convAct {n N : Nat} (HW AGG : Mat n N) (D2 : Mat n 1) (B : Vc N) : Mat n N :=
  fun i => max ((AGG i + HW i * D2 (ix2 (i 0) (0 : Fin 1))) + B (ix1 (i 1))) zeroWord

/-- A layer's activation followed by the next layer's linear map. -/
def convActTimes {n N M : Nat} (HW AGG : Mat n N) (D2 : Mat n 1) (B : Vc N) (W : Mat N M) : Mat n M :=
  rowsTimes (convAct HW AGG D2 B) W

/-- First layer of the edge network: the three row blocks of the weight matrix meet the two endpoint
    embeddings and the edge features; then bias and relu. -/
def edgeHidden1 {n : Nat} (HU HV : Mat n 64) (EF : Mat n 8) (Wu Wv : Mat 64 64) (We : Mat 8 64) (B1 : Vc 64) : Mat n 64 :=
  fun i => max ((((rowsTimes HU Wu i + rowsTimes HV Wv i) + rowsTimes EF We i)) + B1 (ix1 (i 1))) zeroWord

/-- A dense layer with bias and relu. -/
def denseRelu {n K N : Nat} (Z : Mat n K) (W : Mat K N) (B : Vc N) : Mat n N :=
  fun i => max (rowsTimes Z W i + B (ix1 (i 1))) zeroWord

/-- A dense layer with bias, no activation. -/
def dense {n K N : Nat} (Z : Mat n K) (W : Mat K N) (B : Vc N) : Mat n N :=
  fun i => rowsTimes Z W i + B (ix1 (i 1))

/-- The whole edge network. -/
def edgeNet {n : Nat} (HU HV : Mat n 64) (EF : Mat n 8) (Wu Wv : Mat 64 64) (We : Mat 8 64) (B1 : Vc 64)
    (W2 : Mat 64 32) (B2 : Vc 32) (W3 : Mat 32 1) (B3 : Vc 1) : Mat n 1 :=
  dense (denseRelu (edgeHidden1 HU HV EF Wu Wv We B1) W2 B2) W3 B3

end Cert.Stages

end
-- ==== Proof.MatmulAt.lean ====
/-
  A matrix product of a block with a weight matrix, read at one entry: at the ideal instance the product into a
  zero accumulator is the plain sum over the contracted axis, here re-indexed by that axis's one coordinate.
  One statement per block shape the five kernels use; the argument is the same for each and is written once,
  as a tactic over the product's dimension record and its operand shapes.
-/
import proofs.«130208_j24927990186114_2_alg».proof.KernelIdeal
import proofs.«130208_j24927990186114_2_alg».proof.Proof.Gen.KernelIdeal
import Idealize.ShloMosaic.PureOps.Ideal.Laws
import Idealize.ShloMosaic.Lib.ValueIdx

noncomputable section

namespace Cert.KernelIdeal.MatmulAt

open Cert.KernelIdeal Cert.KernelIdeal.Gen Idealize.ShloMosaic Idealize.ShloMosaic.ValueIdx

/-- The entry (p, q) of a rows-by-columns product with one contracted axis of extent `K`: the left operand is
    read at (p, k), the right at (k, q). First the four coordinate facts about the product's operand indices
    (a non-contracted axis reads the result's coordinate, the contracted axis the contraction position), then
    the sum re-indexed along the contracted axis. -/
local macro "matmul_entry " D:ident SL:ident SR:ident K:num : tactic => `(tactic| (
  have l0 : ∀ (i) (q : ($D).contr.Idx), (($D).lhsIdx i q 0).val = (i 0).val := fun i q => by
    unfold DotDims.lhsIdx
    rw [dif_neg (show ¬(0 : Fin ($SL).rank) ∈ ($D).lhsBatch by decide), dif_pos (show (0 : Fin ($SL).rank) ∈ ($D).lhsNonContracting by decide)]
    rfl
  have r1 : ∀ (i) (q : ($D).contr.Idx), (($D).rhsIdx i q 1).val = (i 1).val := fun i q => by
    unfold DotDims.rhsIdx
    rw [dif_neg (show ¬(1 : Fin ($SR).rank) ∈ ($D).rhsBatch by decide), dif_pos (show (1 : Fin ($SR).rank) ∈ ($D).rhsNonContracting by decide)]
    rfl
  refine (Ideal.matmul_constant_zero_apply $D none _ _ _).trans ?_
  rw [← Equiv.sum_comp (contrEquiv1 $D $K rfl rfl).symm]
  refine Finset.sum_congr rfl fun k _ => ?_
  have hk := contrEquiv1_symm_val $D $K rfl rfl k
  refine congrArg₂ (· * ·) (congrArg _ (funext fun a => Fin.ext ?_)) (congrArg _ (funext fun a => Fin.ext ?_))
  · match a with
    | ⟨0, _⟩ => exact l0 _ _
    | ⟨1, _⟩ => exact (($D).lhsIdx_val_of_single rfl _ _).trans hk
  · match a with
    | ⟨0, _⟩ => exact (($D).rhsIdx_val_of_single rfl _ _).trans hk
    | ⟨1, _⟩ => exact r1 _ _))

theorem mm_5000x32x64 {φ₁ φ₂ : FTy} (x : FVec Ideal S5000x32 φ₁) (y : FVec Ideal S32x64 φ₂) (p : Fin 5000) (q : Fin 64) :
    matmul (F := Ideal) dot_S5000x32_S32x64_S5000x64_1_0_0_1_n_n none x y (constant S5000x64 .f32 0x00000000#32) (ix2 p q)
      = ∑ k : Fin 32, x (ix2 p k) * y (ix2 k q) := by
  matmul_entry dot_S5000x32_S32x64_S5000x64_1_0_0_1_n_n S5000x32 S32x64 32

theorem mm_5000x64x64 {φ₁ φ₂ : FTy} (x : FVec Ideal S5000x64 φ₁) (y : FVec Ideal S64x64 φ₂) (p : Fin 5000) (q : Fin 64) :
    matmul (F := Ideal) dot_S5000x64_S64x64_S5000x64_1_0_0_1_n_n none x y (constant S5000x64 .f32 0x00000000#32) (ix2 p q)
      = ∑ k : Fin 64, x (ix2 p k) * y (ix2 k q) := by
  matmul_entry dot_S5000x64_S64x64_S5000x64_1_0_0_1_n_n S5000x64 S64x64 64

theorem mm_8000x64x64 {φ₁ φ₂ : FTy} (x : FVec Ideal S8000x64 φ₁) (y : FVec Ideal S64x64 φ₂) (p : Fin 8000) (q : Fin 64) :
    matmul (F := Ideal) dot_S8000x64_S64x64_S8000x64_1_0_0_1_n_n none x y (constant S8000x64 .f32 0x00000000#32) (ix2 p q)
      = ∑ k : Fin 64, x (ix2 p k) * y (ix2 k q) := by
  matmul_entry dot_S8000x64_S64x64_S8000x64_1_0_0_1_n_n S8000x64 S64x64 64

theorem mm_8000x8x64 {φ₁ φ₂ : FTy} (x : FVec Ideal S8000x8 φ₁) (y : FVec Ideal S8x64 φ₂) (p : Fin 8000) (q : Fin 64) :
    matmul (F := Ideal) dot_S8000x8_S8x64_S8000x64_1_0_0_1_n_n none x y (constant S8000x64 .f32 0x00000000#32) (ix2 p q)
      = ∑ k : Fin 8, x (ix2 p k) * y (ix2 k q) := by
  matmul_entry dot_S8000x8_S8x64_S8000x64_1_0_0_1_n_n S8000x8 S8x64 8

theorem mm_8000x64x32 {φ₁ φ₂ : FTy} (x : FVec Ideal S8000x64 φ₁) (y : FVec Ideal S64x32 φ₂) (p : Fin 8000) (q : Fin 32) :
    matmul (F := Ideal) dot_S8000x64_S64x32_S8000x32_1_0_0_1_n_n none x y (constant S8000x32 .f32 0x00000000#32) (ix2 p q)
      = ∑ k : Fin 64, x (ix2 p k) * y (ix2 k q) := by
  matmul_entry dot_S8000x64_S64x32_S8000x32_1_0_0_1_n_n S8000x64 S64x32 64

theorem mm_8000x32x1 {φ₁ φ₂ : FTy} (x : FVec Ideal S8000x32 φ₁) (y : FVec Ideal S32x1 φ₂) (p : Fin 8000) (q : Fin 1) :
    matmul (F := Ideal) dot_S8000x32_S32x1_S8000x1_1_0_0_1_n_n none x y (constant S8000x1 .f32 0x00000000#32) (ix2 p q)
      = ∑ k : Fin 32, x (ix2 p k) * y (ix2 k q) := by
  matmul_entry dot_S8000x32_S32x1_S8000x1_1_0_0_1_n_n S8000x32 S32x1 32

end Cert.KernelIdeal.MatmulAt

end
-- ==== Proof.Body0.lean ====
/-
  Region 0 (the first linear map), one grid point: the body's stored block is the product of the loaded block of
  node features with the weight matrix; both stores hold it (the second after a change of format, the identity on
  the extended reals).
-/
import proofs.«130208_j24927990186114_2_alg».proof.Proof.Gen.KernelIdeal.Skeleton
import proofs.«130208_j24927990186114_2_alg».proof.Proof.MatmulAt

noncomputable section

namespace Cert.KernelIdeal.Body0

open Cert.KernelIdeal Cert.KernelIdeal.Gen Cert.KernelIdeal.MatmulAt Idealize.ShloMosaic Idealize.ShloMosaic.ValueIdx

theorem pay1_at (x0 : Vec Ideal S5000x32 .f32) (x1 : Vec Ideal S32x64 .f32) (p : Fin 5000) (q : Fin 64) :
    k0_pay1 (F := Ideal) x0 x1 (ix2 p q) = ∑ k : Fin 32, x0 (ix2 p k) * x1 (ix2 k q) := by
  unfold k0_pay1
  exact mm_5000x32x64 _ _ p q

theorem pay2_at (x0 : Vec Ideal S5000x32 .f32) (x1 : Vec Ideal S32x64 .f32) (p : Fin 5000) (q : Fin 64) :
    k0_pay2 (F := Ideal) x0 x1 (ix2 p q) = ∑ k : Fin 32, x0 (ix2 p k) * x1 (ix2 k q) :=
  pay1_at x0 x1 p q

end Cert.KernelIdeal.Body0

end
-- ==== Proof.Region0.lean ====
/-
  Region 0 over its 20 grid points: point t loads rows 5000·t … 5000·t + 4999 of the node features and the whole
  weight matrix, and writes back the same rows of the product, twice (two output arrays). The blocks tile the
  rows, so after the region each output array is the whole product of the arrays the region found.
-/
import proofs.«130208_j24927990186114_2_alg».proof.Proof.Gen.KernelIdeal.Frame
import proofs.«130208_j24927990186114_2_alg».proof.Proof.Stages
import proofs.«130208_j24927990186114_2_alg».proof.Proof.Body0
import Idealize.ShloMosaic.Lib.Pipeline.Value

set_option maxRecDepth 16384

noncomputable section

namespace Cert.KernelIdeal.Region0

open Cert.KernelIdeal Cert.KernelIdeal.Gen Cert.Stages Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window sits at block row t, a whole-array window at 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's block of the node features is row 5000·t + p of the array. -/
theorem read0 (c : Dev nD) (t : Fin cfg0.N) (p : Fin 5000) (k : Fin 32) (r : Fin 100000) (hr : r.val = t.val * 5000 + p.val) :
    iblk0 V c 0 t (ix2 p k) = V c main_arg0 (ix2 r k) := by
  obtain ⟨e0, e1, -⟩ := idx_facts t
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 32 + 1 * k.val = k.val; omega

/-- The weight matrix's block is the whole matrix at every point. -/
theorem read1 (c : Dev nD) (t : Fin cfg0.N) (k : Fin 32) (q : Fin 64) :
    iblk0 V c 1 t (ix2 k q) = V c main_arg3 (ix2 k q) := by
  obtain ⟨-, -, e2, e3, -⟩ := idx_facts t
  show V c main_arg3 (((cfg0.win 1).blk t).view.emb (ix2 k q)) = V c main_arg3 (ix2 k q)
  refine congrArg _ (funext fun a => Fin.ext ?_)
  match a with
  | ⟨0, _⟩ => show win0_1.index t (0 : Fin 2) * 32 + 1 * k.val = k.val; omega
  | ⟨1, _⟩ => show win0_1.index t (1 : Fin 2) * 64 + 1 * q.val = q.val; omega

/-- A product's entry computed from blocks that hold the right rows is the whole product's entry. -/
theorem entry_of_reads (x0 : Vec Ideal S5000x32 .f32) (x1 : Vec Ideal S32x64 .f32) (A : Mat 100000 32) (W : Mat 32 64)
    (p : Fin 5000) (q : Fin 64) (r : Fin 100000) (h0 : ∀ k : Fin 32, x0 (ix2 p k) = A (ix2 r k)) (h1 : ∀ k : Fin 32, x1 (ix2 k q) = W (ix2 k q)) :
    (∑ k : Fin 32, x0 (ix2 p k) * x1 (ix2 k q)) = rowsTimes A W (ix2 r q) := by
  unfold rowsTimes
  exact Finset.sum_congr rfl fun k _ => by rw [h0 k, h1 k]

/-- What point t writes back through output window 2 is block t of the product. -/
theorem flushed2_eq (c : Dev nD) (t : Fin cfg0.N) :
    (dat0 V c).flushed 2 t = ((cfg0.win 2).blk t).view.read (Elt Ideal) (rowsTimes (V c main_arg0) (V c main_arg3)) := by
  show (cfg0.win 2).cut (grid0.coords t) ((dat0 V c).after 2 t) = _
  rw [after0_2]
  unfold out0_2
  rw [View.canon_unit_zero hz]
  simp only [View.ld_unit_zero (S := S5000x32) hz, View.ld_unit_zero (S := S32x64) hz]
  funext j
  obtain ⟨p, q, rfl⟩ : ∃ (p : Fin 5000) (q : Fin 64), j = ix2 p q := ⟨j 0, j 1, eq_ix2 j⟩
  refine (Body0.pay1_at _ _ p q).trans ?_
  obtain ⟨-, -, -, -, e4, e5, -⟩ := idx_facts t
  have ht : t.val < 20 := t.isLt
  refine (entry_of_reads _ _ (V c main_arg0) (V c main_arg3) p q ⟨t.val * 5000 + p.val, by omega⟩
    (fun k => read0 V c t p k _ rfl) (fun k => read1 V c t k q)).trans ?_
  show rowsTimes (V c main_arg0) (V c main_arg3) _ = rowsTimes (V c main_arg0) (V c main_arg3) (((cfg0.win 2).blk t).view.emb (ix2 p q))
  refine congrArg _ (funext fun a => Fin.ext ?_)
  match a with
  | ⟨0, _⟩ => show t.val * 5000 + p.val = win0_2.index t (0 : Fin 2) * 5000 + 1 * p.val; omega
  | ⟨1, _⟩ => show q.val = win0_2.index t (1 : Fin 2) * 64 + 1 * q.val; omega

/-- An index of the array is in point t's block of window 2 iff each coordinate is in the block's range on its axis. -/
theorem mem_blk2 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v28_0).slice (win0_2.rect t)).set ↔ _
  rw [View.set_slice_whole, Rect.mem_set_unit]
  exact Iff.rfl

/-- Every row of the array lies in the block of the point numbered by the row's quotient by 5000. -/
theorem cover2 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 5000 < grid0.N := by rw [N_0]; omega
  refine ⟨⟨(i 0).val / 5000, hlt⟩, flush0_2 _, ?_⟩
  rw [mem_blk2]
  obtain ⟨-, -, -, -, e4, e5, -⟩ := idx_facts ⟨(i 0).val / 5000, hlt⟩
  have hq : (⟨(i 0).val / 5000, hlt⟩ : Fin cfg0.N).val = (i 0).val / 5000 := rfl
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    omega
  | ⟨1, _⟩ =>
    show win0_2.index ⟨(i 0).val / 5000, hlt⟩ (1 : Fin 2) * 64 ≤ (i 1).val ∧ (i 1).val < win0_2.index ⟨(i 0).val / 5000, hlt⟩ (1 : Fin 2) * 64 + 64
    omega

/-- The array of window 2 after the region. -/
theorem final2 (c : Dev nD) : (dat0 V c).arrAt 2 cfg0.N = rowsTimes (V c main_arg0) (V c main_arg3) :=
  (dat0 V c).arrAt_eq_of_cover 2 _ (fun t _ => flushed2_eq V c t) cover2

/-- What point t writes back through output window 3 (the second copy, in the narrower format) is block t of the product. -/
theorem flushed3_eq (c : Dev nD) (t : Fin cfg0.N) :
    (dat0 V c).flushed 3 t = ((cfg0.win 3).blk t).view.read (Elt Ideal) (rowsTimes (V c main_arg0) (V c main_arg3)) := by
  show (cfg0.win 3).cut (grid0.coords t) ((dat0 V c).after 3 t) = _
  rw [after0_3]
  unfold out0_3
  rw [View.canon_unit_zero hz]
  simp only [View.ld_unit_zero (S := S5000x32) hz, View.ld_unit_zero (S := S32x64) hz]
  funext j
  obtain ⟨p, q, rfl⟩ : ∃ (p : Fin 5000) (q : Fin 64), j = ix2 p q := ⟨j 0, j 1, eq_ix2 j⟩
  refine (Body0.pay2_at _ _ p q).trans ?_
  obtain ⟨-, -, -, -, -, -, e6, e7⟩ := idx_facts t
  have ht : t.val < 20 := t.isLt
  refine (entry_of_reads _ _ (V c main_arg0) (V c main_arg3) p q ⟨t.val * 5000 + p.val, by omega⟩
    (fun k => read0 V c t p k _ rfl) (fun k => read1 V c t k q)).trans ?_
  show rowsTimes (V c main_arg0) (V c main_arg3) _ = rowsTimes (V c main_arg0) (V c main_arg3) (((cfg0.win 3).blk t).view.emb (ix2 p q))
  refine congrArg _ (funext fun a => Fin.ext ?_)
  match a with
  | ⟨0, _⟩ => show t.val * 5000 + p.val = win0_3.index t (0 : Fin 2) * 5000 + 1 * p.val; omega
  | ⟨1, _⟩ => show q.val = win0_3.index t (1 : Fin 2) * 64 + 1 * q.val; omega

/-- An index of the array is in point t's block of window 3 iff each coordinate is in the block's range on its axis. -/
theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v28_1).slice (win0_3.rect t)).set ↔ _
  rw [View.set_slice_whole, Rect.mem_set_unit]
  exact Iff.rfl

/-- Every row of the array lies in the block of the point numbered by the row's quotient by 5000. -/
theorem cover3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hlt : (i 0).val / 5000 < grid0.N := by rw [N_0]; omega
  refine ⟨⟨(i 0).val / 5000, hlt⟩, flush0_3 _, ?_⟩
  rw [mem_blk3]
  obtain ⟨-, -, -, -, -, -, e6, e7⟩ := idx_facts ⟨(i 0).val / 5000, hlt⟩
  have hq : (⟨(i 0).val / 5000, hlt⟩ : Fin cfg0.N).val = (i 0).val / 5000 := rfl
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    omega
  | ⟨1, _⟩ =>
    show win0_3.index ⟨(i 0).val / 5000, hlt⟩ (1 : Fin 2) * 64 ≤ (i 1).val ∧ (i 1).val < win0_3.index ⟨(i 0).val / 5000, hlt⟩ (1 : Fin 2) * 64 + 64
    omega

/-- The array of window 3 after the region. -/
theorem final3 (c : Dev nD) : (dat0 V c).arrAt 3 cfg0.N = rowsTimes (V c main_arg0) (V c main_arg3) :=
  (dat0 V c).arrAt_eq_of_cover 3 _ (fun t _ => flushed3_eq V c t) cover3

end Cert.KernelIdeal.Region0

end
-- ==== Proof.LibColumnBroadcast.lean ====
/-
  A column vector broadcast along the rows' second axis, read at an index.
-/
import Idealize.ShloMosaic.Lib.Pipeline.Value
import Idealize.ShloMosaic.Lib.ValueIdx

namespace Cert.LibColumnBroadcast

open Idealize.ShloMosaic Idealize.ShloMosaic.ValueIdx

/-- An `[a, 1]` array broadcast to `[a, b]` reads, at `(p, c)`, the operand at `(p, 0)`: the broadcast repeats the
    one column along the second axis. (The companion of the library's row form `[1, b] → [a, b]`.) -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.BodyConv.lean ====
/-
  The graph convolution's finishing step at one grid point, as the three kernels that contain it compute it:
  from a block of rows of HW and of the neighbour sum AGG, the rows' squared inverse root degrees (one column) and
  the bias, the activation relu ((AGG + HW · d²) + b); the two middle kernels multiply it by the next layer's
  weights, the last one stores it. A change of float format is the identity on the extended reals.
-/
import proofs.«130208_j24927990186114_2_alg».proof.Proof.Gen.KernelIdeal.Skeleton
import proofs.«130208_j24927990186114_2_alg».proof.Proof.MatmulAt
import proofs.«130208_j24927990186114_2_alg».proof.Proof.LibColumnBroadcast
import proofs.«130208_j24927990186114_2_alg».proof.Proof.Stages
import Idealize.ShloMosaic.Lib.ValueLayout

noncomputable section

namespace Cert.KernelIdeal.BodyConv

open Cert.KernelIdeal Cert.KernelIdeal.Gen Cert.KernelIdeal.MatmulAt Cert.Stages Cert.LibColumnBroadcast
open Idealize.ShloMosaic Idealize.ShloMosaic.ValueIdx

/-- The activation at entry (p, k) of the block. -/
theorem act_at (x0 x2 : Vec Ideal S5000x64 .f32) (x4 : Vec Ideal S5000x1 .f32) (x6 : Vec Ideal S64 .f32) (p : Fin 5000) (k : Fin 64) :
    (maximumf (addf (addf (shapeCast S5000x64 x2 shapeCasts_S5000x64_S5000x64)
        (mulf (shapeCast S5000x64 x0 shapeCasts_S5000x64_S5000x64)
          (broadcastTo S5000x64 (shapeCast S5000x1 x4 shapeCasts_S5000x1_S5000x1) broadcasts_S5000x1_S5000x64)))
        (broadcastTo S5000x64 (shapeCast S1x64 x6 shapeCasts_S64_S1x64) broadcasts_S1x64_S5000x64))
      (broadcast S5000x64 (Scalar.ofBits (F := Ideal) .f32 0x00000000#32)) : FVec Ideal S5000x64 .f32) (ix2 p k)
      = max ((x2 (ix2 p k) + x0 (ix2 p k) * x4 (ix2 p (0 : Fin 1))) + x6 (ix1 k)) zeroWord := by
  show max ((shapeCast S5000x64 x2 shapeCasts_S5000x64_S5000x64 (ix2 p k)
      + shapeCast S5000x64 x0 shapeCasts_S5000x64_S5000x64 (ix2 p k)
        * broadcastTo S5000x64 (shapeCast S5000x1 x4 shapeCasts_S5000x1_S5000x1) broadcasts_S5000x1_S5000x64 (ix2 p k))
      + broadcastTo S5000x64 (shapeCast S1x64 x6 shapeCasts_S64_S1x64) broadcasts_S1x64_S5000x64 (ix2 p k)) _ = _
  rw [shapeCast_self, shapeCast_self, shapeCast_self, broadcastTo_a1_ab_apply, broadcastTo_1b_ab_apply, shapeCast_a_1a_apply]
  rfl

/-- Region 1's stored block at (p, q): the activation's row p times column q of the weights. -/
theorem pay1_at_1 (x0 x2 : Vec Ideal S5000x64 .f32) (x4 : Vec Ideal S5000x1 .f32) (x6 : Vec Ideal S64 .f32) (x16 : Vec Ideal S64x64 .f32)
    (p : Fin 5000) (q : Fin 64) :
    k1_pay1 (F := Ideal) x0 x2 x4 x6 x16 (ix2 p q)
      = ∑ k : Fin 64, max ((x2 (ix2 p k) + x0 (ix2 p k) * x4 (ix2 p (0 : Fin 1))) + x6 (ix1 k)) zeroWord * x16 (ix2 k q) := by
  unfold k1_pay1
  refine (mm_5000x64x64 _ _ p q).trans (Finset.sum_congr rfl fun k _ => ?_)
  exact congrArg₂ (· * ·) (act_at x0 x2 x4 x6 p k) rfl

theorem pay2_at_1 (x0 x2 : Vec Ideal S5000x64 .f32) (x4 : Vec Ideal S5000x1 .f32) (x6 : Vec Ideal S64 .f32) (x16 : Vec Ideal S64x64 .f32)
    (p : Fin 5000) (q : Fin 64) :
    k1_pay2 (F := Ideal) x0 x2 x4 x6 x16 (ix2 p q)
      = ∑ k : Fin 64, max ((x2 (ix2 p k) + x0 (ix2 p k) * x4 (ix2 p (0 : Fin 1))) + x6 (ix1 k)) zeroWord * x16 (ix2 k q) :=
  pay1_at_1 x0 x2 x4 x6 x16 p q

/-- Region 2's stored block at (p, q): the same shape, one layer later. -/
theorem pay1_at_2 (x0 x2 : Vec Ideal S5000x64 .f32) (x4 : Vec Ideal S5000x1 .f32) (x6 : Vec Ideal S64 .f32) (x16 : Vec Ideal S64x64 .f32)
    (p : Fin 5000) (q : Fin 64) :
    k2_pay1 (F := Ideal) x0 x2 x4 x6 x16 (ix2 p q)
      = ∑ k : Fin 64, max ((x2 (ix2 p k) + x0 (ix2 p k) * x4 (ix2 p (0 : Fin 1))) + x6 (ix1 k)) zeroWord * x16 (ix2 k q) := by
  unfold k2_pay1
  refine (mm_5000x64x64 _ _ p q).trans (Finset.sum_congr rfl fun k _ => ?_)
  exact congrArg₂ (· * ·) (act_at x0 x2 x4 x6 p k) rfl

theorem pay2_at_2 (x0 x2 : Vec Ideal S5000x64 .f32) (x4 : Vec Ideal S5000x1 .f32) (x6 : Vec Ideal S64 .f32) (x16 : Vec Ideal S64x64 .f32)
    (p : Fin 5000) (q : Fin 64) :
    k2_pay2 (F := Ideal) x0 x2 x4 x6 x16 (ix2 p q)
      = ∑ k : Fin 64, max ((x2 (ix2 p k) + x0 (ix2 p k) * x4 (ix2 p (0 : Fin 1))) + x6 (ix1 k)) zeroWord * x16 (ix2 k q) :=
  pay1_at_2 x0 x2 x4 x6 x16 p q

/-- Region 3's stored block at (p, k): the activation itself. -/
theorem pay1_at_3 (x0 x2 : Vec Ideal S5000x64 .f32) (x4 : Vec Ideal S5000x1 .f32) (x6 : Vec Ideal S64 .f32) (p : Fin 5000) (k : Fin 64) :
    k3_pay1 (F := Ideal) x0 x2 x4 x6 (ix2 p k)
      = max ((x2 (ix2 p k) + x0 (ix2 p k) * x4 (ix2 p (0 : Fin 1))) + x6 (ix1 k)) zeroWord := by
  unfold k3_pay1
  exact act_at x0 x2 x4 x6 p k

end Cert.KernelIdeal.BodyConv

end
-- ==== Proof.Region1.lean ====
/-
  A fused region (a layer's finishing step, then the next layer's linear map) over its 20 grid points: point t
  loads rows 5000·t … 5000·t + 4999 of HW, of the neighbour sum and of the degree column, the whole bias and the
  whole weight matrix, and writes back the same rows of the next layer's HW, twice. The blocks tile the rows, so
  after the region each output array is that function of the arrays the region found, whole.
-/
import proofs.«130208_j24927990186114_2_alg».proof.Proof.Gen.KernelIdeal.Frame
import proofs.«130208_j24927990186114_2_alg».proof.Proof.Stages
import proofs.«130208_j24927990186114_2_alg».proof.Proof.BodyConv
import Idealize.ShloMosaic.Lib.Pipeline.Value

set_option maxRecDepth 16384

noncomputable section

namespace Cert.KernelIdeal.Region1

open Cert.KernelIdeal Cert.KernelIdeal.Gen Cert.Stages Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem hz1 : (![0] : Fin 1 → Nat) = fun _ => 0 := funext fun a => by fin_cases a; rfl

/-- The printed index maps over the grid: a row-blocked window sits at block row t, a whole-array window at 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row p of point t's block of HW is row 5000·t + p of the array. -/
theorem read0 (c : Dev nD) (t : Fin cfg1.N) (p : Fin 5000) (k : Fin 64) (r : Fin 100000) (hr : r.val = t.val * 5000 + p.val) :
    iblk1 V c 0 t (ix2 p k) = V c main_v28_0 (ix2 r k) := by
  obtain ⟨e0, e1, -⟩ := idx_facts t
  show V c main_v28_0 (((cfg1.win 0).blk t).view.emb (ix2 p k)) = V c main_v28_0 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- The same for the neighbour sum. -/
theorem read1 (c : Dev nD) (t : Fin cfg1.N) (p : Fin 5000) (k : Fin 64) (r : Fin 100000) (hr : r.val = t.val * 5000 + p.val) :
    iblk1 V c 1 t (ix2 p k) = V c main_v42 (ix2 r k) := by
  obtain ⟨-, -, e2, e3, -⟩ := idx_facts t
  show V c main_v42 (((cfg1.win 1).blk t).view.emb (ix2 p k)) = V c main_v42 (ix2 r k)
  refine congrArg _ (funext fun a => Fin.ext ?_)
  match a with
  | ⟨0, _⟩ => show win1_1.index t (0 : Fin 2) * 5000 + 1 * p.val = r.val; omega
  | ⟨1, _⟩ => show win1_1.index t (1 : Fin 2) * 64 + 1 * k.val = k.val; omega

/-- The same for the one-column array of squared inverse root degrees. -/
theorem read2 (c : Dev nD) (t : Fin cfg1.N) (p : Fin 5000) (r : Fin 100000) (hr : r.val = t.val * 5000 + p.val) :
    iblk1 V c 2 t (ix2 p (0 : Fin 1)) = V c main_v12 (ix2 r (0 : Fin 1)) := by
  obtain ⟨-, -, -, -, e4, e5, -⟩ := idx_facts t
  show V c main_v12 (((cfg1.win 2).blk t).view.emb (ix2 p (0 : Fin 1))) = V c main_v12 (ix2 r (0 : Fin 1))
  refine congrArg _ (funext fun a => Fin.ext ?_)
  match a with
  | ⟨0, _⟩ => show win1_2.index t (0 : Fin 2) * 5000 + 1 * p.val = r.val; omega
  | ⟨1, _⟩ => show win1_2.index t (1 : Fin 2) * 1 + 1 * 0 = 0; omega

/-- The bias's block is the whole bias at every point. -/
theorem read3 (c : Dev nD) (t : Fin cfg1.N) (k : Fin 64) :
    iblk1 V c 3 t (ix1 k) = V c main_arg4 (ix1 k) := by
  obtain ⟨-, -, -, -, -, -, e6, -⟩ := idx_facts t
  show V c main_arg4 (((cfg1.win 3).blk t).view.emb (ix1 k)) = V c main_arg4 (ix1 k)
  refine congrArg _ (funext fun a => Fin.ext ?_)
  match a with
  | ⟨0, _⟩ => show win1_3.index t (0 : Fin 1) * 64 + 1 * k.val = k.val; omega

/-- The weight matrix's block is the whole matrix at every point. -/
theorem read4 (c : Dev nD) (t : Fin cfg1.N) (k : Fin 64) (q : Fin 64) :
    iblk1 V c 4 t (ix2 k q) = V c main_arg5 (ix2 k q) := by
  obtain ⟨-, -, -, -, -, -, -, e7, e8, -⟩ := idx_facts t
  show V c main_arg5 (((cfg1.win 4).blk t).view.emb (ix2 k q)) = V c main_arg5 (ix2 k q)
  refine congrArg _ (funext fun a => Fin.ext ?_)
  match a with
  | ⟨0, _⟩ => show win1_4.index t (0 : Fin 2) * 64 + 1 * k.val = k.val; omega
  | ⟨1, _⟩ => show win1_4.index t (1 : Fin 2) * 64 + 1 * q.val = q.val; omega

/-- The layer's output entry computed from blocks that hold the right rows is the whole arrays' entry. -/
theorem entry_of_reads (x0 x2 : Vec Ideal S5000x64 .f32) (x4 : Vec Ideal S5000x1 .f32) (x6 : Vec Ideal S64 .f32) (x16 : Vec Ideal S64x64 .f32)
    (HW AGG : Mat 100000 64) (D2 : Mat 100000 1) (B : Vc 64) (W : Mat 64 64) (p : Fin 5000) (q : Fin 64) (r : Fin 100000)
    (h0 : ∀ k : Fin 64, x0 (ix2 p k) = HW (ix2 r k)) (h2 : ∀ k : Fin 64, x2 (ix2 p k) = AGG (ix2 r k))
    (h4 : x4 (ix2 p (0 : Fin 1)) = D2 (ix2 r (0 : Fin 1))) (h6 : ∀ k : Fin 64, x6 (ix1 k) = B (ix1 k))
    (h16 : ∀ k : Fin 64, x16 (ix2 k q) = W (ix2 k q)) :
    (∑ k : Fin 64, max ((x2 (ix2 p k) + x0 (ix2 p k) * x4 (ix2 p (0 : Fin 1))) + x6 (ix1 k)) zeroWord * x16 (ix2 k q))
      = convActTimes HW AGG D2 B W (ix2 r q) := by
  unfold convActTimes rowsTimes convAct
  exact Finset.sum_congr rfl fun k _ => by rw [h0 k, h2 k, h4, h6 k, h16 k]

/-- What point t writes back through output window 5 is block t of the layer's output. -/
theorem flushed5_eq (c : Dev nD) (t : Fin cfg1.N) :
    (dat1 V c).flushed 5 t = ((cfg1.win 5).blk t).view.read (Elt Ideal) (convActTimes (V c main_v28_0) (V c main_v42) (V c main_v12) (V c main_arg4) (V c main_arg5)) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S64) hz1, View.ld_unit_zero (S := S64x64) hz]
  funext j
  obtain ⟨p, q, rfl⟩ : ∃ (p : Fin 5000) (q : Fin 64), j = ix2 p q := ⟨j 0, j 1, eq_ix2 j⟩
  refine (BodyConv.pay1_at_1 _ _ _ _ _ p q).trans ?_
  obtain ⟨-, -, -, -, -, -, -, -, -, e9, e10, -⟩ := idx_facts t
  have ht : t.val < 20 := t.isLt
  refine (entry_of_reads _ _ _ _ _ (V c main_v28_0) (V c main_v42) (V c main_v12) (V c main_arg4) (V c main_arg5) p q ⟨t.val * 5000 + p.val, by omega⟩
    (fun k => read0 V c t p k _ rfl) (fun k => read1 V c t p k _ rfl) (read2 V c t p _ rfl) (fun k => read3 V c t k) (fun k => read4 V c t k q)).trans ?_
  show (convActTimes (V c main_v28_0) (V c main_v42) (V c main_v12) (V c main_arg4) (V c main_arg5)) _ = (convActTimes (V c main_v28_0) (V c main_v42) (V c main_v12) (V c main_arg4) (V c main_arg5)) (((cfg1.win 5).blk t).view.emb (ix2 p q))
  refine congrArg _ (funext fun a => Fin.ext ?_)
  match a with
  | ⟨0, _⟩ => show t.val * 5000 + p.val = win1_5.index t (0 : Fin 2) * 5000 + 1 * p.val; omega
  | ⟨1, _⟩ => show q.val = win1_5.index t (1 : Fin 2) * 64 + 1 * q.val; omega

/-- An index of the array is in point t's block of window 5 iff each coordinate is in the block's range on its axis. -/
theorem mem_blk5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v43_0).slice (win1_5.rect t)).set ↔ _
  rw [View.set_slice_whole, Rect.mem_set_unit]
  exact Iff.rfl

/-- Every row of the array lies in the block of the point numbered by the row's quotient by 5000. -/
theorem cover5 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hlt : (i 0).val / 5000 < grid1.N := by rw [N_1]; omega
  refine ⟨⟨(i 0).val / 5000, hlt⟩, flush1_5 _, ?_⟩
  rw [mem_blk5]
  obtain ⟨-, -, -, -, -, -, -, -, -, e9, e10, -⟩ := idx_facts ⟨(i 0).val / 5000, hlt⟩
  have hq : (⟨(i 0).val / 5000, hlt⟩ : Fin cfg1.N).val = (i 0).val / 5000 := rfl
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    omega
  | ⟨1, _⟩ =>
    show win1_5.index ⟨(i 0).val / 5000, hlt⟩ (1 : Fin 2) * 64 ≤ (i 1).val ∧ (i 1).val < win1_5.index ⟨(i 0).val / 5000, hlt⟩ (1 : Fin 2) * 64 + 64
    omega

/-- The array of window 5 after the region. -/
theorem final5 (c : Dev nD) : (dat1 V c).arrAt 5 cfg1.N = convActTimes (V c main_v28_0) (V c main_v42) (V c main_v12) (V c main_arg4) (V c main_arg5) :=
  (dat1 V c).arrAt_eq_of_cover 5 _ (fun t _ => flushed5_eq V c t) cover5

/-- What point t writes back through output window 6 is block t of the layer's output. -/
theorem flushed6_eq (c : Dev nD) (t : Fin cfg1.N) :
    (dat1 V c).flushed 6 t = ((cfg1.win 6).blk t).view.read (Elt Ideal) (convActTimes (V c main_v28_0) (V c main_v42) (V c main_v12) (V c main_arg4) (V c main_arg5)) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S64) hz1, View.ld_unit_zero (S := S64x64) hz]
  funext j
  obtain ⟨p, q, rfl⟩ : ∃ (p : Fin 5000) (q : Fin 64), j = ix2 p q := ⟨j 0, j 1, eq_ix2 j⟩
  refine (BodyConv.pay2_at_1 _ _ _ _ _ p q).trans ?_
  obtain ⟨-, -, -, -, -, -, -, -, -, -, -, e11, e12⟩ := idx_facts t
  have ht : t.val < 20 := t.isLt
  refine (entry_of_reads _ _ _ _ _ (V c main_v28_0) (V c main_v42) (V c main_v12) (V c main_arg4) (V c main_arg5) p q ⟨t.val * 5000 + p.val, by omega⟩
    (fun k => read0 V c t p k _ rfl) (fun k => read1 V c t p k _ rfl) (read2 V c t p _ rfl) (fun k => read3 V c t k) (fun k => read4 V c t k q)).trans ?_
  show (convActTimes (V c main_v28_0) (V c main_v42) (V c main_v12) (V c main_arg4) (V c main_arg5)) _ = (convActTimes (V c main_v28_0) (V c main_v42) (V c main_v12) (V c main_arg4) (V c main_arg5)) (((cfg1.win 6).blk t).view.emb (ix2 p q))
  refine congrArg _ (funext fun a => Fin.ext ?_)
  match a with
  | ⟨0, _⟩ => show t.val * 5000 + p.val = win1_6.index t (0 : Fin 2) * 5000 + 1 * p.val; omega
  | ⟨1, _⟩ => show q.val = win1_6.index t (1 : Fin 2) * 64 + 1 * q.val; omega

/-- An index of the array is in point t's block of window 6 iff each coordinate is in the block's range on its axis. -/
theorem mem_blk6 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v43_1).slice (win1_6.rect t)).set ↔ _
  rw [View.set_slice_whole, Rect.mem_set_unit]
  exact Iff.rfl

/-- Every row of the array lies in the block of the point numbered by the row's quotient by 5000. -/
theorem cover6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hlt : (i 0).val / 5000 < grid1.N := by rw [N_1]; omega
  refine ⟨⟨(i 0).val / 5000, hlt⟩, flush1_6 _, ?_⟩
  rw [mem_blk6]
  obtain ⟨-, -, -, -, -, -, -, -, -, -, -, e11, e12⟩ := idx_facts ⟨(i 0).val / 5000, hlt⟩
  have hq : (⟨(i 0).val / 5000, hlt⟩ : Fin cfg1.N).val = (i 0).val / 5000 := rfl
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    omega
  | ⟨1, _⟩ =>
    show win1_6.index ⟨(i 0).val / 5000, hlt⟩ (1 : Fin 2) * 64 ≤ (i 1).val ∧ (i 1).val < win1_6.index ⟨(i 0).val / 5000, hlt⟩ (1 : Fin 2) * 64 + 64
    omega

/-- The array of window 6 after the region. -/
theorem final6 (c : Dev nD) : (dat1 V c).arrAt 6 cfg1.N = convActTimes (V c main_v28_0) (V c main_v42) (V c main_v12) (V c main_arg4) (V c main_arg5) :=
  (dat1 V c).arrAt_eq_of_cover 6 _ (fun t _ => flushed6_eq V c t) cover6

end Cert.KernelIdeal.Region1

end
-- ==== Proof.Region2.lean ====
/-
  A fused region (a layer's finishing step, then the next layer's linear map) over its 20 grid points: point t
  loads rows 5000·t … 5000·t + 4999 of HW, of the neighbour sum and of the degree column, the whole bias and the
  whole weight matrix, and writes back the same rows of the next layer's HW, twice. The blocks tile the rows, so
  after the region each output array is that function of the arrays the region found, whole.
-/
import proofs.«130208_j24927990186114_2_alg».proof.Proof.Gen.KernelIdeal.Frame
import proofs.«130208_j24927990186114_2_alg».proof.Proof.Stages
import proofs.«130208_j24927990186114_2_alg».proof.Proof.BodyConv
import Idealize.ShloMosaic.Lib.Pipeline.Value

set_option maxRecDepth 16384

noncomputable section

namespace Cert.KernelIdeal.Region2

open Cert.KernelIdeal Cert.KernelIdeal.Gen Cert.Stages Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem hz1 : (![0] : Fin 1 → Nat) = fun _ => 0 := funext fun a => by fin_cases a; rfl

/-- The printed index maps over the grid: a row-blocked window sits at block row t, a whole-array window at 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row p of point t's block of HW is row 5000·t + p of the array. -/
theorem read0 (c : Dev nD) (t : Fin cfg2.N) (p : Fin 5000) (k : Fin 64) (r : Fin 100000) (hr : r.val = t.val * 5000 + p.val) :
    iblk2 V c 0 t (ix2 p k) = V c main_v43_0 (ix2 r k) := by
  obtain ⟨e0, e1, -⟩ := idx_facts t
  show V c main_v43_0 (((cfg2.win 0).blk t).view.emb (ix2 p k)) = V c main_v43_0 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- The same for the neighbour sum. -/
theorem read1 (c : Dev nD) (t : Fin cfg2.N) (p : Fin 5000) (k : Fin 64) (r : Fin 100000) (hr : r.val = t.val * 5000 + p.val) :
    iblk2 V c 1 t (ix2 p k) = V c main_v57 (ix2 r k) := by
  obtain ⟨-, -, e2, e3, -⟩ := idx_facts t
  show V c main_v57 (((cfg2.win 1).blk t).view.emb (ix2 p k)) = V c main_v57 (ix2 r k)
  refine congrArg _ (funext fun a => Fin.ext ?_)
  match a with
  | ⟨0, _⟩ => show win2_1.index t (0 : Fin 2) * 5000 + 1 * p.val = r.val; omega
  | ⟨1, _⟩ => show win2_1.index t (1 : Fin 2) * 64 + 1 * k.val = k.val; omega

/-- The same for the one-column array of squared inverse root degrees. -/
theorem read2 (c : Dev nD) (t : Fin cfg2.N) (p : Fin 5000) (r : Fin 100000) (hr : r.val = t.val * 5000 + p.val) :
    iblk2 V c 2 t (ix2 p (0 : Fin 1)) = V c main_v12 (ix2 r (0 : Fin 1)) := by
  obtain ⟨-, -, -, -, e4, e5, -⟩ := idx_facts t
  show V c main_v12 (((cfg2.win 2).blk t).view.emb (ix2 p (0 : Fin 1))) = V c main_v12 (ix2 r (0 : Fin 1))
  refine congrArg _ (funext fun a => Fin.ext ?_)
  match a with
  | ⟨0, _⟩ => show win2_2.index t (0 : Fin 2) * 5000 + 1 * p.val = r.val; omega
  | ⟨1, _⟩ => show win2_2.index t (1 : Fin 2) * 1 + 1 * 0 = 0; omega

/-- The bias's block is the whole bias at every point. -/
theorem read3 (c : Dev nD) (t : Fin cfg2.N) (k : Fin 64) :
    iblk2 V c 3 t (ix1 k) = V c main_arg6 (ix1 k) := by
  obtain ⟨-, -, -, -, -, -, e6, -⟩ := idx_facts t
  show V c main_arg6 (((cfg2.win 3).blk t).view.emb (ix1 k)) = V c main_arg6 (ix1 k)
  refine congrArg _ (funext fun a => Fin.ext ?_)
  match a with
  | ⟨0, _⟩ => show win2_3.index t (0 : Fin 1) * 64 + 1 * k.val = k.val; omega

/-- The weight matrix's block is the whole matrix at every point. -/
theorem read4 (c : Dev nD) (t : Fin cfg2.N) (k : Fin 64) (q : Fin 64) :
    iblk2 V c 4 t (ix2 k q) = V c main_arg7 (ix2 k q) := by
  obtain ⟨-, -, -, -, -, -, -, e7, e8, -⟩ := idx_facts t
  show V c main_arg7 (((cfg2.win 4).blk t).view.emb (ix2 k q)) = V c main_arg7 (ix2 k q)
  refine congrArg _ (funext fun a => Fin.ext ?_)
  match a with
  | ⟨0, _⟩ => show win2_4.index t (0 : Fin 2) * 64 + 1 * k.val = k.val; omega
  | ⟨1, _⟩ => show win2_4.index t (1 : Fin 2) * 64 + 1 * q.val = q.val; omega

/-- The layer's output entry computed from blocks that hold the right rows is the whole arrays' entry. -/
theorem entry_of_reads (x0 x2 : Vec Ideal S5000x64 .f32) (x4 : Vec Ideal S5000x1 .f32) (x6 : Vec Ideal S64 .f32) (x16 : Vec Ideal S64x64 .f32)
    (HW AGG : Mat 100000 64) (D2 : Mat 100000 1) (B : Vc 64) (W : Mat 64 64) (p : Fin 5000) (q : Fin 64) (r : Fin 100000)
    (h0 : ∀ k : Fin 64, x0 (ix2 p k) = HW (ix2 r k)) (h2 : ∀ k : Fin 64, x2 (ix2 p k) = AGG (ix2 r k))
    (h4 : x4 (ix2 p (0 : Fin 1)) = D2 (ix2 r (0 : Fin 1))) (h6 : ∀ k : Fin 64, x6 (ix1 k) = B (ix1 k))
    (h16 : ∀ k : Fin 64, x16 (ix2 k q) = W (ix2 k q)) :
    (∑ k : Fin 64, max ((x2 (ix2 p k) + x0 (ix2 p k) * x4 (ix2 p (0 : Fin 1))) + x6 (ix1 k)) zeroWord * x16 (ix2 k q))
      = convActTimes HW AGG D2 B W (ix2 r q) := by
  unfold convActTimes rowsTimes convAct
  exact Finset.sum_congr rfl fun k _ => by rw [h0 k, h2 k, h4, h6 k, h16 k]

/-- What point t writes back through output window 5 is block t of the layer's output. -/
theorem flushed5_eq (c : Dev nD) (t : Fin cfg2.N) :
    (dat2 V c).flushed 5 t = ((cfg2.win 5).blk t).view.read (Elt Ideal) (convActTimes (V c main_v43_0) (V c main_v57) (V c main_v12) (V c main_arg6) (V c main_arg7)) := by
  show (cfg2.win 5).cut (grid2.coords t) ((dat2 V c).after 5 t) = _
  rw [after2_5]
  unfold out2_5
  rw [View.canon_unit_zero hz]
  simp only [View.ld_unit_zero (S := S5000x64) hz, View.ld_unit_zero (S := S5000x1) hz, View.ld_unit_zero (S := S64) hz1, View.ld_unit_zero (S := S64x64) hz]
  funext j
  obtain ⟨p, q, rfl⟩ : ∃ (p : Fin 5000) (q : Fin 64), j = ix2 p q := ⟨j 0, j 1, eq_ix2 j⟩
  refine (BodyConv.pay1_at_2 _ _ _ _ _ p q).trans ?_
  obtain ⟨-, -, -, -, -, -, -, -, -, e9, e10, -⟩ := idx_facts t
  have ht : t.val < 20 := t.isLt
  refine (entry_of_reads _ _ _ _ _ (V c main_v43_0) (V c main_v57) (V c main_v12) (V c main_arg6) (V c main_arg7) p q ⟨t.val * 5000 + p.val, by omega⟩
    (fun k => read0 V c t p k _ rfl) (fun k => read1 V c t p k _ rfl) (read2 V c t p _ rfl) (fun k => read3 V c t k) (fun k => read4 V c t k q)).trans ?_
  show (convActTimes (V c main_v43_0) (V c main_v57) (V c main_v12) (V c main_arg6) (V c main_arg7)) _ = (convActTimes (V c main_v43_0) (V c main_v57) (V c main_v12) (V c main_arg6) (V c main_arg7)) (((cfg2.win 5).blk t).view.emb (ix2 p q))
  refine congrArg _ (funext fun a => Fin.ext ?_)
  match a with
  | ⟨0, _⟩ => show t.val * 5000 + p.val = win2_5.index t (0 : Fin 2) * 5000 + 1 * p.val; omega
  | ⟨1, _⟩ => show q.val = win2_5.index t (1 : Fin 2) * 64 + 1 * q.val; omega

/-- An index of the array is in point t's block of window 5 iff each coordinate is in the block's range on its axis. -/
theorem mem_blk5 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v58_0).slice (win2_5.rect t)).set ↔ _
  rw [View.set_slice_whole, Rect.mem_set_unit]
  exact Iff.rfl

/-- Every row of the array lies in the block of the point numbered by the row's quotient by 5000. -/
theorem cover5 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hlt : (i 0).val / 5000 < grid2.N := by rw [N_2]; omega
  refine ⟨⟨(i 0).val / 5000, hlt⟩, flush2_5 _, ?_⟩
  rw [mem_blk5]
  obtain ⟨-, -, -, -, -, -, -, -, -, e9, e10, -⟩ := idx_facts ⟨(i 0).val / 5000, hlt⟩
  have hq : (⟨(i 0).val / 5000, hlt⟩ : Fin cfg2.N).val = (i 0).val / 5000 := rfl
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    omega
  | ⟨1, _⟩ =>
    show win2_5.index ⟨(i 0).val / 5000, hlt⟩ (1 : Fin 2) * 64 ≤ (i 1).val ∧ (i 1).val < win2_5.index ⟨(i 0).val / 5000, hlt⟩ (1 : Fin 2) * 64 + 64
    omega

/-- The array of window 5 after the region. -/
theorem final5 (c : Dev nD) : (dat2 V c).arrAt 5 cfg2.N = convActTimes (V c main_v43_0) (V c main_v57) (V c main_v12) (V c main_arg6) (V c main_arg7) :=
  (dat2 V c).arrAt_eq_of_cover 5 _ (fun t _ => flushed5_eq V c t) cover5

/-- What point t writes back through output window 6 is block t of the layer's output. -/
theorem flushed6_eq (c : Dev nD) (t : Fin cfg2.N) :
    (dat2 V c).flushed 6 t = ((cfg2.win 6).blk t).view.read (Elt Ideal) (convActTimes (V c main_v43_0) (V c main_v57) (V c main_v12) (V c main_arg6) (V c main_arg7)) := by
  show (cfg2.win 6).cut (grid2.coords t) ((dat2 V c).after 6 t) = _
  rw [after2_6]
  unfold out2_6
  rw [View.canon_unit_zero hz]
  simp only [View.ld_unit_zero (S := S5000x64) hz, View.ld_unit_zero (S := S5000x1) hz, View.ld_unit_zero (S := S64) hz1, View.ld_unit_zero (S := S64x64) hz]
  funext j
  obtain ⟨p, q, rfl⟩ : ∃ (p : Fin 5000) (q : Fin 64), j = ix2 p q := ⟨j 0, j 1, eq_ix2 j⟩
  refine (BodyConv.pay2_at_2 _ _ _ _ _ p q).trans ?_
  obtain ⟨-, -, -, -, -, -, -, -, -, -, -, e11, e12⟩ := idx_facts t
  have ht : t.val < 20 := t.isLt
  refine (entry_of_reads _ _ _ _ _ (V c main_v43_0) (V c main_v57) (V c main_v12) (V c main_arg6) (V c main_arg7) p q ⟨t.val * 5000 + p.val, by omega⟩
    (fun k => read0 V c t p k _ rfl) (fun k => read1 V c t p k _ rfl) (read2 V c t p _ rfl) (fun k => read3 V c t k) (fun k => read4 V c t k q)).trans ?_
  show (convActTimes (V c main_v43_0) (V c main_v57) (V c main_v12) (V c main_arg6) (V c main_arg7)) _ = (convActTimes (V c main_v43_0) (V c main_v57) (V c main_v12) (V c main_arg6) (V c main_arg7)) (((cfg2.win 6).blk t).view.emb (ix2 p q))
  refine congrArg _ (funext fun a => Fin.ext ?_)
  match a with
  | ⟨0, _⟩ => show t.val * 5000 + p.val = win2_6.index t (0 : Fin 2) * 5000 + 1 * p.val; omega
  | ⟨1, _⟩ => show q.val = win2_6.index t (1 : Fin 2) * 64 + 1 * q.val; omega

/-- An index of the array is in point t's block of window 6 iff each coordinate is in the block's range on its axis. -/
theorem mem_blk6 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v58_1).slice (win2_6.rect t)).set ↔ _
  rw [View.set_slice_whole, Rect.mem_set_unit]
  exact Iff.rfl

/-- Every row of the array lies in the block of the point numbered by the row's quotient by 5000. -/
theorem cover6 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hlt : (i 0).val / 5000 < grid2.N := by rw [N_2]; omega
  refine ⟨⟨(i 0).val / 5000, hlt⟩, flush2_6 _, ?_⟩
  rw [mem_blk6]
  obtain ⟨-, -, -, -, -, -, -, -, -, -, -, e11, e12⟩ := idx_facts ⟨(i 0).val / 5000, hlt⟩
  have hq : (⟨(i 0).val / 5000, hlt⟩ : Fin cfg2.N).val = (i 0).val / 5000 := rfl
  intro a
  match a with
  | ⟨0, _⟩ =>
    show win2_6.index ⟨(i 0).val / 5000, hlt⟩ (0 : Fin 2) * 5000 ≤ (i 0).val ∧ (i 0).val < win2_6.index ⟨(i 0).val / 5000, hlt⟩ (0 : Fin 2) * 5000 + 5000
    omega
  | ⟨1, _⟩ =>
    show win2_6.index ⟨(i 0).val / 5000, hlt⟩ (1 : Fin 2) * 64 ≤ (i 1).val ∧ (i 1).val < win2_6.index ⟨(i 0).val / 5000, hlt⟩ (1 : Fin 2) * 64 + 64
    omega

/-- The array of window 6 after the region. -/
theorem final6 (c : Dev nD) : (dat2 V c).arrAt 6 cfg2.N = convActTimes (V c main_v43_0) (V c main_v57) (V c main_v12) (V c main_arg6) (V c main_arg7) :=
  (dat2 V c).arrAt_eq_of_cover 6 _ (fun t _ => flushed6_eq V c t) cover6

end Cert.KernelIdeal.Region2

end
-- ==== Proof.Region3.lean ====
/-
  The last layer's finishing step over its 20 grid points: point t loads rows 5000·t … 5000·t + 4999 of HW, of the
  neighbour sum and of the degree column and the whole bias, and writes back the same rows of the activation. The
  blocks tile the rows, so after the region the output array is the activation of the arrays the region found.
-/
import proofs.«130208_j24927990186114_2_alg».proof.Proof.Gen.KernelIdeal.Frame
import proofs.«130208_j24927990186114_2_alg».proof.Proof.Stages
import proofs.«130208_j24927990186114_2_alg».proof.Proof.BodyConv
import Idealize.ShloMosaic.Lib.Pipeline.Value

set_option maxRecDepth 16384

noncomputable section

namespace Cert.KernelIdeal.Region3

open Cert.KernelIdeal Cert.KernelIdeal.Gen Cert.Stages Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem hz1 : (![0] : Fin 1 → Nat) = fun _ => 0 := funext fun a => by fin_cases a; rfl

/-- The printed index maps over the grid: a row-blocked window sits at block row t, a whole-array window at 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- Row p of point t's block of HW is row 5000·t + p of the array. -/
theorem read0 (c : Dev nD) (t : Fin cfg3.N) (p : Fin 5000) (k : Fin 64) (r : Fin 100000) (hr : r.val = t.val * 5000 + p.val) :
    iblk3 V c 0 t (ix2 p k) = V c main_v58_0 (ix2 r k) := by
  obtain ⟨e0, e1, -⟩ := idx_facts t
  show V c main_v58_0 (((cfg3.win 0).blk t).view.emb (ix2 p k)) = V c main_v58_0 (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 64 + 1 * k.val = k.val; omega

/-- The same for the neighbour sum. -/
theorem read1 (c : Dev nD) (t : Fin cfg3.N) (p : Fin 5000) (k : Fin 64) (r : Fin 100000) (hr : r.val = t.val * 5000 + p.val) :
    iblk3 V c 1 t (ix2 p k) = V c main_v72 (ix2 r k) := by
  obtain ⟨-, -, e2, e3, -⟩ := idx_facts t
  show V c main_v72 (((cfg3.win 1).blk t).view.emb (ix2 p k)) = V c main_v72 (ix2 r k)
  refine congrArg _ (funext fun a => Fin.ext ?_)
  match a with
  | ⟨0, _⟩ => show win3_1.index t (0 : Fin 2) * 5000 + 1 * p.val = r.val; omega
  | ⟨1, _⟩ => show win3_1.index t (1 : Fin 2) * 64 + 1 * k.val = k.val; omega

/-- The same for the one-column array of squared inverse root degrees. -/
theorem read2 (c : Dev nD) (t : Fin cfg3.N) (p : Fin 5000) (r : Fin 100000) (hr : r.val = t.val * 5000 + p.val) :
    iblk3 V c 2 t (ix2 p (0 : Fin 1)) = V c main_v12 (ix2 r (0 : Fin 1)) := by
  obtain ⟨-, -, -, -, e4, e5, -⟩ := idx_facts t
  show V c main_v12 (((cfg3.win 2).blk t).view.emb (ix2 p (0 : Fin 1))) = V c main_v12 (ix2 r (0 : Fin 1))
  refine congrArg _ (funext fun a => Fin.ext ?_)
  match a with
  | ⟨0, _⟩ => show win3_2.index t (0 : Fin 2) * 5000 + 1 * p.val = r.val; omega
  | ⟨1, _⟩ => show win3_2.index t (1 : Fin 2) * 1 + 1 * 0 = 0; omega

/-- The bias's block is the whole bias at every point. -/
theorem read3 (c : Dev nD) (t : Fin cfg3.N) (k : Fin 64) :
    iblk3 V c 3 t (ix1 k) = V c main_arg8 (ix1 k) := by
  obtain ⟨-, -, -, -, -, -, e6, -⟩ := idx_facts t
  show V c main_arg8 (((cfg3.win 3).blk t).view.emb (ix1 k)) = V c main_arg8 (ix1 k)
  refine congrArg _ (funext fun a => Fin.ext ?_)
  match a with
  | ⟨0, _⟩ => show win3_3.index t (0 : Fin 1) * 64 + 1 * k.val = k.val; omega

/-- The activation's entry computed from blocks that hold the right rows is the whole arrays' entry. -/
theorem entry_of_reads (x0 x2 : Vec Ideal S5000x64 .f32) (x4 : Vec Ideal S5000x1 .f32) (x6 : Vec Ideal S64 .f32)
    (HW AGG : Mat 100000 64) (D2 : Mat 100000 1) (B : Vc 64) (p : Fin 5000) (k : Fin 64) (r : Fin 100000)
    (h0 : x0 (ix2 p k) = HW (ix2 r k)) (h2 : x2 (ix2 p k) = AGG (ix2 r k))
    (h4 : x4 (ix2 p (0 : Fin 1)) = D2 (ix2 r (0 : Fin 1))) (h6 : x6 (ix1 k) = B (ix1 k)) :
    max ((x2 (ix2 p k) + x0 (ix2 p k) * x4 (ix2 p (0 : Fin 1))) + x6 (ix1 k)) zeroWord
      = convAct HW AGG D2 B (ix2 r k) := by
  unfold convAct
  rw [h0, h2, h4, h6]

/-- What point t writes back through the output window is block t of the activation. -/
theorem flushed4_eq (c : Dev nD) (t : Fin cfg3.N) :
    (dat3 V c).flushed 4 t = ((cfg3.win 4).blk t).view.read (Elt Ideal) (convAct (V c main_v58_0) (V c main_v72) (V c main_v12) (V c main_arg8)) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz, View.ld_unit_zero (S := S64) hz1]
  funext j
  obtain ⟨p, q, rfl⟩ : ∃ (p : Fin 5000) (q : Fin 64), j = ix2 p q := ⟨j 0, j 1, eq_ix2 j⟩
  refine (BodyConv.pay1_at_3 _ _ _ _ p q).trans ?_
  obtain ⟨-, -, -, -, -, -, -, e7, e8⟩ := idx_facts t
  have ht : t.val < 20 := t.isLt
  refine (entry_of_reads _ _ _ _ (V c main_v58_0) (V c main_v72) (V c main_v12) (V c main_arg8) p q ⟨t.val * 5000 + p.val, by omega⟩
    (read0 V c t p q _ rfl) (read1 V c t p q _ rfl) (read2 V c t p _ rfl) (read3 V c t q)).trans ?_
  show (convAct (V c main_v58_0) (V c main_v72) (V c main_v12) (V c main_arg8)) _ = (convAct (V c main_v58_0) (V c main_v72) (V c main_v12) (V c main_arg8)) (((cfg3.win 4).blk t).view.emb (ix2 p q))
  refine congrArg _ (funext fun a => Fin.ext ?_)
  match a with
  | ⟨0, _⟩ => show t.val * 5000 + p.val = win3_4.index t (0 : Fin 2) * 5000 + 1 * p.val; omega
  | ⟨1, _⟩ => show q.val = win3_4.index t (1 : Fin 2) * 64 + 1 * q.val; omega

/-- An index of the array is in point t's block of window 4 iff each coordinate is in the block's range on its axis. -/
theorem mem_blk4 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v73).slice (win3_4.rect t)).set ↔ _
  rw [View.set_slice_whole, Rect.mem_set_unit]
  exact Iff.rfl

/-- Every row of the array lies in the block of the point numbered by the row's quotient by 5000. -/
theorem cover4 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hlt : (i 0).val / 5000 < grid3.N := by rw [N_3]; omega
  refine ⟨⟨(i 0).val / 5000, hlt⟩, flush3_4 _, ?_⟩
  rw [mem_blk4]
  obtain ⟨-, -, -, -, -, -, -, e7, e8⟩ := idx_facts ⟨(i 0).val / 5000, hlt⟩
  have hq : (⟨(i 0).val / 5000, hlt⟩ : Fin cfg3.N).val = (i 0).val / 5000 := rfl
  intro a
  match a with
  | ⟨0, _⟩ =>
    show win3_4.index ⟨(i 0).val / 5000, hlt⟩ (0 : Fin 2) * 5000 ≤ (i 0).val ∧ (i 0).val < win3_4.index ⟨(i 0).val / 5000, hlt⟩ (0 : Fin 2) * 5000 + 5000
    omega
  | ⟨1, _⟩ =>
    show win3_4.index ⟨(i 0).val / 5000, hlt⟩ (1 : Fin 2) * 64 ≤ (i 1).val ∧ (i 1).val < win3_4.index ⟨(i 0).val / 5000, hlt⟩ (1 : Fin 2) * 64 + 64
    omega

/-- The array of window 4 after the region. -/
theorem final4 (c : Dev nD) : (dat3 V c).arrAt 4 cfg3.N = convAct (V c main_v58_0) (V c main_v72) (V c main_v12) (V c main_arg8) :=
  (dat3 V c).arrAt_eq_of_cover 4 _ (fun t _ => flushed4_eq V c t) cover4

end Cert.KernelIdeal.Region3

end
-- ==== Proof.BodyEdge.lean ====
/-
  The edge network at one grid point: from a block of 8000 edges' two endpoint embeddings and edge features,
  the first layer as three partial products (one per row block of its weight matrix) plus bias, relu; a dense
  layer with relu; a last dense layer. Each product is read at an entry as a sum over the contracted axis.
-/
import proofs.«130208_j24927990186114_2_alg».proof.Proof.Gen.KernelIdeal.Skeleton
import proofs.«130208_j24927990186114_2_alg».proof.Proof.MatmulAt
import proofs.«130208_j24927990186114_2_alg».proof.Proof.Stages
import Idealize.ShloMosaic.Lib.ValueLayout

noncomputable section

namespace Cert.KernelIdeal.BodyEdge

open Cert.KernelIdeal Cert.KernelIdeal.Gen Cert.KernelIdeal.MatmulAt Cert.Stages
open Idealize.ShloMosaic Idealize.ShloMosaic.ValueIdx

/-- A row-broadcast bias added to a matrix, then relu, at entry (p, k). -/
theorem relu_bias_at {n N : ℕ} (M : FVec Ideal ⟨2, ![n, N]⟩ .f32) (b : FVec Ideal ⟨2, ![1, N]⟩ .f32)
    (h : (⟨2, ![1, N]⟩ : Shape).Broadcasts ⟨2, ![n, N]⟩) (p : Fin n) (k : Fin N) :
    (maximumf (addf M (broadcastTo ⟨2, ![n, N]⟩ b h)) (broadcast ⟨2, ![n, N]⟩ (Scalar.ofBits (F := Ideal) .f32 0x00000000#32))) (ix2 p k)
      = max (M (ix2 p k) + b (ix2 (0 : Fin 1) k)) zeroWord := by
  show max (M (ix2 p k) + broadcastTo ⟨2, ![n, N]⟩ b h (ix2 p k)) _ = _
  rw [broadcastTo_1b_ab_apply]
  rfl

/-- The first hidden layer's entry (p, j) in terms of the loaded blocks. -/
def hidden1 (v0 v2 : Vec Ideal S8000x64 .bf16) (v4 : Vec Ideal S8000x8 .bf16) (v6 v9 : Vec Ideal S64x64 .f32) (v12 : Vec Ideal S8x64 .f32)
    (v15 : Vec Ideal S64 .f32) (p : Fin 8000) (j : Fin 64) : EReal :=
  max (((((∑ i : Fin 64, v0 (ix2 p i) * v6 (ix2 i j)) + ∑ i : Fin 64, v2 (ix2 p i) * v9 (ix2 i j))
    + ∑ i : Fin 8, v4 (ix2 p i) * v12 (ix2 i j))) + v15 (ix1 j)) zeroWord

/-- The second hidden layer's block at entry (p, k). -/
theorem pay2_at (v0 v2 : Vec Ideal S8000x64 .bf16) (v4 : Vec Ideal S8000x8 .bf16) (v6 v9 : Vec Ideal S64x64 .f32) (v12 : Vec Ideal S8x64 .f32)
    (v15 : Vec Ideal S64 .f32) (v27 : Vec Ideal S64x32 .f32) (v29 : Vec Ideal S32 .f32) (p : Fin 8000) (k : Fin 32) :
    k4_pay2 (F := Ideal) v0 v2 v4 v6 v9 v12 v15 v27 v29 (ix2 p k)
      = max ((∑ j : Fin 64, hidden1 v0 v2 v4 v6 v9 v12 v15 p j * v27 (ix2 j k)) + v29 (ix1 k)) zeroWord := by
  unfold k4_pay2
  refine (relu_bias_at _ _ _ p k).trans ?_
  refine congrArg₂ max (congrArg₂ (· + ·) ?_ ?_) rfl
  · refine (mm_8000x64x32 _ _ p k).trans (Finset.sum_congr rfl fun j _ => congrArg₂ (· * ·) ?_ rfl)
    refine (relu_bias_at _ _ _ p j).trans ?_
    unfold hidden1
    refine congrArg₂ max (congrArg₂ (· + ·) (congrArg₂ (· + ·) (congrArg₂ (· + ·) ?_ ?_) ?_) ?_) rfl
    · exact (mm_8000x64x64 _ _ p j).trans (Finset.sum_congr rfl fun i _ => by rw [shapeCast_self, shapeCast_self]; rfl)
    · exact (mm_8000x64x64 _ _ p j).trans (Finset.sum_congr rfl fun i _ => by rw [shapeCast_self, shapeCast_self]; rfl)
    · exact (mm_8000x8x64 _ _ p j).trans (Finset.sum_congr rfl fun i _ => by rw [shapeCast_self, shapeCast_self]; rfl)
    · exact shapeCast_a_1a_apply v15 _ 0 j
  · exact shapeCast_a_1a_apply v29 _ 0 k

/-- The output block at entry (p, q). -/
theorem pay1_at (v36 : FVec Ideal S8000x32 .bf16) (v37 : Vec Ideal S32x1 .f32) (v39 : Vec Ideal S1 .f32) (p : Fin 8000) (q : Fin 1) :
    k4_pay1 (F := Ideal) v36 v37 v39 (ix2 p q) = (∑ k : Fin 32, v36 (ix2 p k) * v37 (ix2 k q)) + v39 (ix1 q) := by
  unfold k4_pay1
  show matmul (F := Ideal) dot_S8000x32_S32x1_S8000x1_1_0_0_1_n_n none v36 _ _ (ix2 p q) + broadcastTo S8000x1 (shapeCast S1x1 v39 shapeCasts_S1_S1x1) broadcasts_S1x1_S8000x1 (ix2 p q) = _
  rw [mm_8000x32x1, broadcastTo_1b_ab_apply, shapeCast_a_1a_apply]
  rfl

end Cert.KernelIdeal.BodyEdge

end
-- ==== Proof.Region4.lean ====
/-
  The edge network over its 200 grid points: point t loads rows 8000·t … 8000·t + 7999 of the two gathered endpoint
  embeddings and of the edge features, and the whole of every weight matrix and bias, and writes back the same rows
  of the network's output. The blocks tile the rows, so after the region the output array is the edge network of the
  arrays the region found, whole.
-/
import proofs.«130208_j24927990186114_2_alg».proof.Proof.Gen.KernelIdeal.Frame
import proofs.«130208_j24927990186114_2_alg».proof.Proof.Stages
import proofs.«130208_j24927990186114_2_alg».proof.Proof.BodyEdge
import Idealize.ShloMosaic.Lib.Pipeline.Value

set_option maxRecDepth 16384

noncomputable section

namespace Cert.KernelIdeal.Region4

open Cert.KernelIdeal Cert.KernelIdeal.Gen Cert.Stages Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem hz1 : (![0] : Fin 1 → Nat) = fun _ => 0 := funext fun a => by fin_cases a; rfl

/-- The printed index maps over the grid: a row-blocked window sits at block row t, a whole-array window at 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 1) = 0
    ∧ win4_7.index t (0 : Fin 2) = 0 ∧ win4_7.index t (1 : Fin 2) = 0
    ∧ win4_8.index t (0 : Fin 1) = 0
    ∧ win4_9.index t (0 : Fin 2) = 0 ∧ win4_9.index t (1 : Fin 2) = 0
    ∧ win4_10.index t (0 : Fin 1) = 0
    ∧ win4_11.index t (0 : Fin 2) = t.val ∧ win4_11.index t (1 : Fin 2) = 0 :=
  (by decide +kernel : ∀ t : Fin grid4.N, _)

/-- Row p of point t's block of the source endpoints' embeddings is row 8000·t + p of the array. -/
theorem read0 (c : Dev nD) (t : Fin cfg4.N) (p : Fin 8000) (k : Fin 64) (r : Fin 1600000) (hr : r.val = t.val * 8000 + p.val) :
    iblk4 V c 0 t (ix2 p k) = V c main_v80 (ix2 r k) := by
  obtain ⟨e0, e1, -, -, -, -, -, -, -, -, -, -, -, -, -, -, -, -, -, -, -⟩ := idx_facts t
  show V c main_v80 (((cfg4.win 0).blk t).view.emb (ix2 p k)) = V c main_v80 (ix2 r k)
  refine congrArg _ (funext fun a => Fin.ext ?_)
  match a with
  | ⟨0, _⟩ => show win4_0.index t (0 : Fin 2) * 8000 + 1 * p.val = r.val; omega
  | ⟨1, _⟩ => show win4_0.index t (1 : Fin 2) * 64 + 1 * k.val = k.val; omega

/-- The same for the target endpoints' embeddings. -/
theorem read1 (c : Dev nD) (t : Fin cfg4.N) (p : Fin 8000) (k : Fin 64) (r : Fin 1600000) (hr : r.val = t.val * 8000 + p.val) :
    iblk4 V c 1 t (ix2 p k) = V c main_v87 (ix2 r k) := by
  obtain ⟨-, -, e2, e3, -, -, -, -, -, -, -, -, -, -, -, -, -, -, -, -, -⟩ := idx_facts t
  show V c main_v87 (((cfg4.win 1).blk t).view.emb (ix2 p k)) = V c main_v87 (ix2 r k)
  refine congrArg _ (funext fun a => Fin.ext ?_)
  match a with
  | ⟨0, _⟩ => show win4_1.index t (0 : Fin 2) * 8000 + 1 * p.val = r.val; omega
  | ⟨1, _⟩ => show win4_1.index t (1 : Fin 2) * 64 + 1 * k.val = k.val; omega

/-- The same for the edge features. -/
theorem read2 (c : Dev nD) (t : Fin cfg4.N) (p : Fin 8000) (k : Fin 8) (r : Fin 1600000) (hr : r.val = t.val * 8000 + p.val) :
    iblk4 V c 2 t (ix2 p k) = V c main_v88 (ix2 r k) := by
  obtain ⟨-, -, -, -, e4, e5, -, -, -, -, -, -, -, -, -, -, -, -, -, -, -⟩ := idx_facts t
  show V c main_v88 (((cfg4.win 2).blk t).view.emb (ix2 p k)) = V c main_v88 (ix2 r k)
  refine congrArg _ (funext fun a => Fin.ext ?_)
  match a with
  | ⟨0, _⟩ => show win4_2.index t (0 : Fin 2) * 8000 + 1 * p.val = r.val; omega
  | ⟨1, _⟩ => show win4_2.index t (1 : Fin 2) * 8 + 1 * k.val = k.val; omega

/-- A weight matrix's block is the whole matrix at every point: the first row block of the first layer's weights. -/
theorem read3 (c : Dev nD) (t : Fin cfg4.N) (k : Fin 64) (q : Fin 64) :
    iblk4 V c 3 t (ix2 k q) = V c main_v89 (ix2 k q) := by
  obtain ⟨-, -, -, -, -, -, e6, e7, -, -, -, -, -, -, -, -, -, -, -, -, -⟩ := idx_facts t
  show V c main_v89 (((cfg4.win 3).blk t).view.emb (ix2 k q)) = V c main_v89 (ix2 k q)
  refine congrArg _ (funext fun a => Fin.ext ?_)
  match a with
  | ⟨0, _⟩ => show win4_3.index t (0 : Fin 2) * 64 + 1 * k.val = k.val; omega
  | ⟨1, _⟩ => show win4_3.index t (1 : Fin 2) * 64 + 1 * q.val = q.val; omega

/-- The second row block of the first layer's weights. -/
theorem read4 (c : Dev nD) (t : Fin cfg4.N) (k : Fin 64) (q : Fin 64) :
    iblk4 V c 4 t (ix2 k q) = V c main_v90 (ix2 k q) := by
  obtain ⟨-, -, -, -, -, -, -, -, e8, e9, -, -, -, -, -, -, -, -, -, -, -⟩ := idx_facts t
  show V c main_v90 (((cfg4.win 4).blk t).view.emb (ix2 k q)) = V c main_v90 (ix2 k q)
  refine congrArg _ (funext fun a => Fin.ext ?_)
  match a with
  | ⟨0, _⟩ => show win4_4.index t (0 : Fin 2) * 64 + 1 * k.val = k.val; omega
  | ⟨1, _⟩ => show win4_4.index t (1 : Fin 2) * 64 + 1 * q.val = q.val; omega

/-- The third row block of the first layer's weights. -/
theorem read5 (c : Dev nD) (t : Fin cfg4.N) (k : Fin 8) (q : Fin 64) :
    iblk4 V c 5 t (ix2 k q) = V c main_v91 (ix2 k q) := by
  obtain ⟨-, -, -, -, -, -, -, -, -, -, e10, e11, -, -, -, -, -, -, -, -, -⟩ := idx_facts t
  show V c main_v91 (((cfg4.win 5).blk t).view.emb (ix2 k q)) = V c main_v91 (ix2 k q)
  refine congrArg _ (funext fun a => Fin.ext ?_)
  match a with
  | ⟨0, _⟩ => show win4_5.index t (0 : Fin 2) * 8 + 1 * k.val = k.val; omega
  | ⟨1, _⟩ => show win4_5.index t (1 : Fin 2) * 64 + 1 * q.val = q.val; omega

/-- The first layer's bias. -/
theorem read6 (c : Dev nD) (t : Fin cfg4.N) (k : Fin 64) :
    iblk4 V c 6 t (ix1 k) = V c main_arg10 (ix1 k) := by
  obtain ⟨-, -, -, -, -, -, -, -, -, -, -, -, e12, -, -, -, -, -, -, -, -⟩ := idx_facts t
  show V c main_arg10 (((cfg4.win 6).blk t).view.emb (ix1 k)) = V c main_arg10 (ix1 k)
  refine congrArg _ (funext fun a => Fin.ext ?_)
  match a with
  | ⟨0, _⟩ => show win4_6.index t (0 : Fin 1) * 64 + 1 * k.val = k.val; omega

/-- The second layer's weights. -/
theorem read7 (c : Dev nD) (t : Fin cfg4.N) (k : Fin 64) (q : Fin 32) :
    iblk4 V c 7 t (ix2 k q) = V c main_arg11 (ix2 k q) := by
  obtain ⟨-, -, -, -, -, -, -, -, -, -, -, -, -, e13, e14, -, -, -, -, -, -⟩ := idx_facts t
  show V c main_arg11 (((cfg4.win 7).blk t).view.emb (ix2 k q)) = V c main_arg11 (ix2 k q)
  refine congrArg _ (funext fun a => Fin.ext ?_)
  match a with
  | ⟨0, _⟩ => show win4_7.index t (0 : Fin 2) * 64 + 1 * k.val = k.val; omega
  | ⟨1, _⟩ => show win4_7.index t (1 : Fin 2) * 32 + 1 * q.val = q.val; omega

/-- The second layer's bias. -/
theorem read8 (c : Dev nD) (t : Fin cfg4.N) (k : Fin 32) :
    iblk4 V c 8 t (ix1 k) = V c main_arg12 (ix1 k) := by
  obtain ⟨-, -, -, -, -, -, -, -, -, -, -, -, -, -, -, e15, -, -, -, -, -⟩ := idx_facts t
  show V c main_arg12 (((cfg4.win 8).blk t).view.emb (ix1 k)) = V c main_arg12 (ix1 k)
  refine congrArg _ (funext fun a => Fin.ext ?_)
  match a with
  | ⟨0, _⟩ => show win4_8.index t (0 : Fin 1) * 32 + 1 * k.val = k.val; omega

/-- The last layer's weights. -/
theorem read9 (c : Dev nD) (t : Fin cfg4.N) (k : Fin 32) (q : Fin 1) :
    iblk4 V c 9 t (ix2 k q) = V c main_arg13 (ix2 k q) := by
  obtain ⟨-, -, -, -, -, -, -, -, -, -, -, -, -, -, -, -, e16, e17, -, -, -⟩ := idx_facts t
  show V c main_arg13 (((cfg4.win 9).blk t).view.emb (ix2 k q)) = V c main_arg13 (ix2 k q)
  refine congrArg _ (funext fun a => Fin.ext ?_)
  match a with
  | ⟨0, _⟩ => show win4_9.index t (0 : Fin 2) * 32 + 1 * k.val = k.val; omega
  | ⟨1, _⟩ => show win4_9.index t (1 : Fin 2) * 1 + 1 * q.val = q.val; omega

/-- The last layer's bias. -/
theorem read10 (c : Dev nD) (t : Fin cfg4.N) (k : Fin 1) :
    iblk4 V c 10 t (ix1 k) = V c main_arg14 (ix1 k) := by
  obtain ⟨-, -, -, -, -, -, -, -, -, -, -, -, -, -, -, -, -, -, e18, -, -⟩ := idx_facts t
  show V c main_arg14 (((cfg4.win 10).blk t).view.emb (ix1 k)) = V c main_arg14 (ix1 k)
  refine congrArg _ (funext fun a => Fin.ext ?_)
  match a with
  | ⟨0, _⟩ => show win4_10.index t (0 : Fin 1) * 1 + 1 * k.val = k.val; omega

/-- The network's output entry computed from blocks that hold the right rows is the whole arrays' entry. -/
theorem entry_of_reads (x0 x1 : Vec Ideal S8000x64 .bf16) (x2 : Vec Ideal S8000x8 .bf16) (x3 x4 : Vec Ideal S64x64 .f32) (x5 : Vec Ideal S8x64 .f32)
    (x6 : Vec Ideal S64 .f32) (x7 : Vec Ideal S64x32 .f32) (x8 : Vec Ideal S32 .f32) (x9 : Vec Ideal S32x1 .f32) (x10 : Vec Ideal S1 .f32)
    (HU HV : Mat 1600000 64) (EF : Mat 1600000 8) (Wu Wv : Mat 64 64) (We : Mat 8 64) (B1 : Vc 64) (W2 : Mat 64 32) (B2 : Vc 32) (W3 : Mat 32 1) (B3 : Vc 1)
    (p : Fin 8000) (q : Fin 1) (r : Fin 1600000)
    (h0 : ∀ i : Fin 64, x0 (ix2 p i) = HU (ix2 r i)) (h1 : ∀ i : Fin 64, x1 (ix2 p i) = HV (ix2 r i)) (h2 : ∀ i : Fin 8, x2 (ix2 p i) = EF (ix2 r i))
    (h3 : ∀ (i : Fin 64) (j : Fin 64), x3 (ix2 i j) = Wu (ix2 i j)) (h4 : ∀ (i : Fin 64) (j : Fin 64), x4 (ix2 i j) = Wv (ix2 i j))
    (h5 : ∀ (i : Fin 8) (j : Fin 64), x5 (ix2 i j) = We (ix2 i j)) (h6 : ∀ j : Fin 64, x6 (ix1 j) = B1 (ix1 j))
    (h7 : ∀ (j : Fin 64) (k : Fin 32), x7 (ix2 j k) = W2 (ix2 j k)) (h8 : ∀ k : Fin 32, x8 (ix1 k) = B2 (ix1 k))
    (h9 : ∀ k : Fin 32, x9 (ix2 k q) = W3 (ix2 k q)) (h10 : x10 (ix1 q) = B3 (ix1 q)) :
    (∑ k : Fin 32, max ((∑ j : Fin 64, BodyEdge.hidden1 x0 x1 x2 x3 x4 x5 x6 p j * x7 (ix2 j k)) + x8 (ix1 k)) zeroWord * x9 (ix2 k q)) + x10 (ix1 q)
      = edgeNet HU HV EF Wu Wv We B1 W2 B2 W3 B3 (ix2 r q) := by
  unfold edgeNet dense denseRelu edgeHidden1 rowsTimes BodyEdge.hidden1
  simp only [h0, h1, h2, h3, h4, h5, h6, h7, h8, h9, h10]

/-- What point t writes back through the output window is block t of the network's output. -/
theorem flushed11_eq (c : Dev nD) (t : Fin cfg4.N) :
    (dat4 V c).flushed 11 t = ((cfg4.win 11).blk t).view.read (Elt Ideal) (edgeNet (V c main_v80) (V c main_v87) (V c main_v88) (V c main_v89) (V c main_v90) (V c main_v91) (V c main_arg10) (V c main_arg11) (V c main_arg12) (V c main_arg13) (V c main_arg14)) := by
  show (cfg4.win 11).cut (grid4.coords t) ((dat4 V c).after 11 t) = _
  rw [after4_11]
  unfold out4_11
  rw [View.canon_unit_zero hz]
  simp only [View.ld_unit_zero (S := S8000x64) hz, View.ld_unit_zero (S := S8000x8) hz, View.ld_unit_zero (S := S64x64) hz, View.ld_unit_zero (S := S8x64) hz,
    View.ld_unit_zero (S := S64) hz1, View.ld_unit_zero (S := S64x32) hz, View.ld_unit_zero (S := S32) hz1, View.ld_unit_zero (S := S32x1) hz, View.ld_unit_zero (S := S1) hz1]
  funext j
  obtain ⟨p, q, rfl⟩ : ∃ (p : Fin 8000) (q : Fin 1), j = ix2 p q := ⟨j 0, j 1, eq_ix2 j⟩
  refine (BodyEdge.pay1_at _ _ _ p q).trans ?_
  refine (congrArg₂ (· + ·) (Finset.sum_congr rfl fun k _ => congrArg₂ (· * ·) (BodyEdge.pay2_at _ _ _ _ _ _ _ _ _ p k) rfl) rfl).trans ?_
  obtain ⟨-, -, -, -, -, -, -, -, -, -, -, -, -, -, -, -, -, -, -, e19, e20⟩ := idx_facts t
  have ht : t.val < 200 := t.isLt
  refine (entry_of_reads _ _ _ _ _ _ _ _ _ _ _ (V c main_v80) (V c main_v87) (V c main_v88) (V c main_v89) (V c main_v90) (V c main_v91) (V c main_arg10) (V c main_arg11) (V c main_arg12) (V c main_arg13) (V c main_arg14) p q ⟨t.val * 8000 + p.val, by omega⟩
    (fun i => read0 V c t p i _ rfl) (fun i => read1 V c t p i _ rfl) (fun i => read2 V c t p i _ rfl)
    (fun i j => read3 V c t i j) (fun i j => read4 V c t i j) (fun i j => read5 V c t i j) (fun j => read6 V c t j)
    (fun j k => read7 V c t j k) (fun k => read8 V c t k) (fun k => read9 V c t k q) (read10 V c t q)).trans ?_
  show (edgeNet (V c main_v80) (V c main_v87) (V c main_v88) (V c main_v89) (V c main_v90) (V c main_v91) (V c main_arg10) (V c main_arg11) (V c main_arg12) (V c main_arg13) (V c main_arg14)) _ = (edgeNet (V c main_v80) (V c main_v87) (V c main_v88) (V c main_v89) (V c main_v90) (V c main_v91) (V c main_arg10) (V c main_arg11) (V c main_arg12) (V c main_arg13) (V c main_arg14)) (((cfg4.win 11).blk t).view.emb (ix2 p q))
  refine congrArg _ (funext fun a => Fin.ext ?_)
  match a with
  | ⟨0, _⟩ => show t.val * 8000 + p.val = win4_11.index t (0 : Fin 2) * 8000 + 1 * p.val; omega
  | ⟨1, _⟩ => show q.val = win4_11.index t (1 : Fin 2) * 1 + 1 * q.val; omega

/-- An index of the array is in point t's block of window 11 iff each coordinate is in the block's range on its axis. -/
theorem mem_blk11 (t : Fin cfg4.N) (i : S1600000x1.Idx) :
    i ∈ ((cfg4.win 11).blk t).view.set ↔ ∀ a : Fin 2, win4_11.index t a * S8000x1.size a ≤ (i a).val ∧ (i a).val < win4_11.index t a * S8000x1.size a + S8000x1.size a := by
  show i ∈ ((View.whole main_v92).slice (win4_11.rect t)).set ↔ _
  rw [View.set_slice_whole, Rect.mem_set_unit]
  exact Iff.rfl

/-- Every row of the array lies in the block of the point numbered by the row's quotient by 8000. -/
theorem cover11 (i : S1600000x1.Idx) : ∃ t : Fin cfg4.N, (cfg4.win 11).flush t = true ∧ i ∈ ((cfg4.win 11).blk t).view.set := by
  have hi0 : (i 0).val < 1600000 := (i 0).isLt
  have hi1 : (i 1).val < 1 := (i 1).isLt
  have hlt : (i 0).val / 8000 < grid4.N := by rw [N_4]; omega
  refine ⟨⟨(i 0).val / 8000, hlt⟩, flush4_11 _, ?_⟩
  rw [mem_blk11]
  obtain ⟨-, -, -, -, -, -, -, -, -, -, -, -, -, -, -, -, -, -, -, e19, e20⟩ := idx_facts ⟨(i 0).val / 8000, hlt⟩
  have hq : (⟨(i 0).val / 8000, hlt⟩ : Fin cfg4.N).val = (i 0).val / 8000 := rfl
  intro a
  match a with
  | ⟨0, _⟩ =>
    show win4_11.index ⟨(i 0).val / 8000, hlt⟩ (0 : Fin 2) * 8000 ≤ (i 0).val ∧ (i 0).val < win4_11.index ⟨(i 0).val / 8000, hlt⟩ (0 : Fin 2) * 8000 + 8000
    omega
  | ⟨1, _⟩ =>
    show win4_11.index ⟨(i 0).val / 8000, hlt⟩ (1 : Fin 2) * 1 ≤ (i 1).val ∧ (i 1).val < win4_11.index ⟨(i 0).val / 8000, hlt⟩ (1 : Fin 2) * 1 + 1
    omega

/-- The array of window 11 after the region. -/
theorem final11 (c : Dev nD) : (dat4 V c).arrAt 11 cfg4.N = edgeNet (V c main_v80) (V c main_v87) (V c main_v88) (V c main_v89) (V c main_v90) (V c main_v91) (V c main_arg10) (V c main_arg11) (V c main_arg12) (V c main_arg13) (V c main_arg14) :=
  (dat4 V c).arrAt_eq_of_cover 11 _ (fun t _ => flushed11_eq V c t) cover11

end Cert.KernelIdeal.Region4

end
-- ==== Proof.Walk.lean ====
/-
  Reading the kernel program's buffers through its run.

  The program is five regions among five stretches of host operations. The generated frame module names the buffer
  contents at each boundary as a fold from the launch memory: a stretch of host operations rewrites the buffers its
  operations write, a region rewrites its output windows' arrays and nothing else. Here each buffer a region reads
  is walked back through that fold, either to the launch memory (an argument no operation writes), or to the
  previous region's output (left symbolic), or to the value the reference program computes at the matching stage.

  The gathers and scatter-adds are the same operations in both programs and stay closed; the stretches differ from
  the reference only in where a value is widened or narrowed (the identity on the extended reals), in the names of
  constants, and in computing the edges' normaliser once instead of once per layer.
-/
import proofs.«130208_j24927990186114_2_alg».proof.Proof.Gen.KernelIdeal.Frame
import proofs.«130208_j24927990186114_2_alg».proof.Proof.Gen.ReferenceIdeal.Read
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value

set_option maxRecDepth 16384
set_option maxHeartbeats 1000000

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A stretch of host operations leaves a buffer none of them writes as it was: every operation's written
    reference differs from the buffer's. -/
local macro "stretch_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## At the launch and after the first stretch of host operations -/

/-- The node features reach the first region as launched. -/
theorem V1_arg0 : V1 m ρ c main_arg0 = m ((c : Thread nD τ).loc main_arg0) :=
  calc V1 m ρ c main_arg0
    _ = W0 m ρ c (Proc.devRef .tc main_arg0) := (by stretch_keeps hostOps0)
    _ = m ((c : Thread nD τ).loc main_arg0) := rfl

/-- The first layer's weights reach the first region as launched. -/
theorem V1_arg3 : V1 m ρ c main_arg3 = m ((c : Thread nD τ).loc main_arg3) :=
  calc V1 m ρ c main_arg3
    _ = W0 m ρ c (Proc.devRef .tc main_arg3) := (by stretch_keeps hostOps0)
    _ = m ((c : Thread nD τ).loc main_arg3) := rfl

/-- The edges' source nodes: row 0 of the edge list. -/
theorem W1_v1 : W1 m ρ c (Proc.devRef .tc main_v1) = ReferenceIdeal.Read.val_main_v1 (m ((c : Thread nD τ).loc main_arg1)) := by
  show StableHlo.after hostOps0 _ (Proc.devRef .tc main_v1) = _
  after_results_simp
  simp only [ReferenceIdeal.Read.val_main_v1, ReferenceIdeal.Read.val_main_v0]
  rfl

/-- The edges' target nodes: row 1 of the edge list. -/
theorem W1_v3 : W1 m ρ c (Proc.devRef .tc main_v3) = ReferenceIdeal.Read.val_main_v3 (m ((c : Thread nD τ).loc main_arg1)) := by
  show StableHlo.after hostOps0 _ (Proc.devRef .tc main_v3) = _
  after_results_simp
  simp only [ReferenceIdeal.Read.val_main_v3, ReferenceIdeal.Read.val_main_v2]
  rfl

/-- The squared inverse root degree of every node, as a column. -/
theorem W1_v12 : W1 m ρ c (Proc.devRef .tc main_v12) = ReferenceIdeal.Read.val_main_v41 (m ((c : Thread nD τ).loc main_arg1)) := by
  show StableHlo.after hostOps0 _ (Proc.devRef .tc main_v12) = _
  after_results_simp
  simp only [ReferenceIdeal.Read.val_main_v41, ReferenceIdeal.Read.val_main_v40, ReferenceIdeal.Read.val_main_v10, ReferenceIdeal.Read.val_main_v9, ReferenceIdeal.Read.val_main_v7, ReferenceIdeal.Read.val_main_v8, ReferenceIdeal.Read.val_main_v5, ReferenceIdeal.Read.val_main_v6, ReferenceIdeal.Read.val_main_v4, ReferenceIdeal.Read.val_main_v3, ReferenceIdeal.Read.val_main_v2, ReferenceIdeal.Read.val_main_cst, ReferenceIdeal.Read.val_main_cst_0, ReferenceIdeal.Read.val_main_cst_1]
  rfl

/-- The normaliser of every edge: the product of its two endpoints' inverse root degrees. -/
theorem W1_v27 : W1 m ρ c (Proc.devRef .tc main_v27) = ReferenceIdeal.Read.val_main_v26 (m ((c : Thread nD τ).loc main_arg1)) := by
  show StableHlo.after hostOps0 _ (Proc.devRef .tc main_v27) = _
  after_results_simp
  simp only [ReferenceIdeal.Read.val_main_v26, ReferenceIdeal.Read.val_main_v18, ReferenceIdeal.Read.val_main_v25, ReferenceIdeal.Read.val_main_v17, ReferenceIdeal.Read.val_main_v16, ReferenceIdeal.Read.val_main_v13, ReferenceIdeal.Read.val_main_v15, ReferenceIdeal.Read.val_main_v12, ReferenceIdeal.Read.val_main_v14, ReferenceIdeal.Read.val_main_v24, ReferenceIdeal.Read.val_main_v23, ReferenceIdeal.Read.val_main_v20, ReferenceIdeal.Read.val_main_v22, ReferenceIdeal.Read.val_main_v19, ReferenceIdeal.Read.val_main_v21, ReferenceIdeal.Read.val_main_v10, ReferenceIdeal.Read.val_main_v9, ReferenceIdeal.Read.val_main_v7, ReferenceIdeal.Read.val_main_v8, ReferenceIdeal.Read.val_main_v5, ReferenceIdeal.Read.val_main_v6, ReferenceIdeal.Read.val_main_v4, ReferenceIdeal.Read.val_main_v1, ReferenceIdeal.Read.val_main_v0, ReferenceIdeal.Read.val_main_v3, ReferenceIdeal.Read.val_main_v2, ReferenceIdeal.Read.val_main_cst, ReferenceIdeal.Read.val_main_cst_0, ReferenceIdeal.Read.val_main_cst_1, ReferenceIdeal.Read.val_main_c, ReferenceIdeal.Read.val_main_c_2, ReferenceIdeal.Read.val_main_c_3, ReferenceIdeal.Read.val_main_c_4]
  rfl

/-! ## Through region 0 and the second stretch of host operations: what region 1 reads

Region 0 reads the node features and the first weights and writes the first product twice (at full and at
reduced width); it touches no other buffer, so the edge lists, the degrees and the normalisers pass it by. -/

/-- Region 0 leaves the edges' source nodes in place. -/
theorem W2_v1 : W2 m ρ c (Proc.devRef .tc main_v1) = ReferenceIdeal.Read.val_main_v1 (m ((c : Thread nD τ).loc main_arg1)) :=
  (W2_of_ne m ρ c main_v1 (by decide)).trans (W1_v1 m ρ c)

/-- Region 0 leaves the edges' target nodes in place. -/
theorem W2_v3 : W2 m ρ c (Proc.devRef .tc main_v3) = ReferenceIdeal.Read.val_main_v3 (m ((c : Thread nD τ).loc main_arg1)) :=
  (W2_of_ne m ρ c main_v3 (by decide)).trans (W1_v3 m ρ c)

/-- Region 0 leaves the squared inverse root degrees in place. -/
theorem W2_v12 : W2 m ρ c (Proc.devRef .tc main_v12) = ReferenceIdeal.Read.val_main_v41 (m ((c : Thread nD τ).loc main_arg1)) :=
  (W2_of_ne m ρ c main_v12 (by decide)).trans (W1_v12 m ρ c)

/-- Region 0 leaves the edges' normalisers in place. -/
theorem W2_v27 : W2 m ρ c (Proc.devRef .tc main_v27) = ReferenceIdeal.Read.val_main_v26 (m ((c : Thread nD τ).loc main_arg1)) :=
  (W2_of_ne m ρ c main_v27 (by decide)).trans (W1_v27 m ρ c)

/-- The second stretch does not write the first product: region 1 reads it as region 0 left it. -/
theorem V3_v28_0 : V3 m ρ c main_v28_0 = W2 m ρ c (Proc.devRef .tc main_v28_0) := by stretch_keeps hostOps1

/-- Region 1 reads the squared inverse root degrees. -/
theorem V3_v12 : V3 m ρ c main_v12 = ReferenceIdeal.Read.val_main_v41 (m ((c : Thread nD τ).loc main_arg1)) :=
  calc V3 m ρ c main_v12
    _ = W2 m ρ c (Proc.devRef .tc main_v12) := (by stretch_keeps hostOps1)
    _ = ReferenceIdeal.Read.val_main_v41 (m ((c : Thread nD τ).loc main_arg1)) := W2_v12 m ρ c

/-- The first layer's bias reaches region 1 as launched. -/
theorem V3_arg4 : V3 m ρ c main_arg4 = m ((c : Thread nD τ).loc main_arg4) :=
  calc V3 m ρ c main_arg4
    _ = W2 m ρ c (Proc.devRef .tc main_arg4) := (by stretch_keeps hostOps1)
    _ = W1 m ρ c (Proc.devRef .tc main_arg4) := (W2_of_ne m ρ c main_arg4 (by decide))
    _ = W0 m ρ c (Proc.devRef .tc main_arg4) := (by stretch_keeps hostOps0)
    _ = m ((c : Thread nD τ).loc main_arg4) := rfl

/-- The second layer's weights reach region 1 as launched. -/
theorem V3_arg5 : V3 m ρ c main_arg5 = m ((c : Thread nD τ).loc main_arg5) :=
  calc V3 m ρ c main_arg5
    _ = W2 m ρ c (Proc.devRef .tc main_arg5) := (by stretch_keeps hostOps1)
    _ = W1 m ρ c (Proc.devRef .tc main_arg5) := (W2_of_ne m ρ c main_arg5 (by decide))
    _ = W0 m ρ c (Proc.devRef .tc main_arg5) := (by stretch_keeps hostOps0)
    _ = m ((c : Thread nD τ).loc main_arg5) := rfl

/-- The first layer's neighbour sum: the reduced-width product gathered along the edges' source nodes, scaled by
    the edges' normalisers and added up at the target nodes, is the reference's, once region 0's reduced-width
    output is the reference's product. -/
theorem agg0 (h : W2 m ρ c (Proc.devRef .tc main_v28_1) = ReferenceIdeal.Read.val_main_v11 (m ((c : Thread nD τ).loc main_arg0)) (m ((c : Thread nD τ).loc main_arg3))) :
    V3 m ρ c main_v42 = ReferenceIdeal.Read.val_main_v39 (m ((c : Thread nD τ).loc main_arg0)) (m ((c : Thread nD τ).loc main_arg1)) (m ((c : Thread nD τ).loc main_arg3)) := by
  show StableHlo.after hostOps1 _ (Proc.devRef .tc main_v42) = _
  after_results_simp
  rw [W2_v1 m ρ c, W2_v3 m ρ c, W2_v27 m ρ c, h]
  simp only [ReferenceIdeal.Read.val_main_v39, ReferenceIdeal.Read.val_main_v37, ReferenceIdeal.Read.val_main_v38, ReferenceIdeal.Read.val_main_v36, ReferenceIdeal.Read.val_main_v34, ReferenceIdeal.Read.val_main_v35, ReferenceIdeal.Read.val_main_v33, ReferenceIdeal.Read.val_main_v32, ReferenceIdeal.Read.val_main_v29, ReferenceIdeal.Read.val_main_v31, ReferenceIdeal.Read.val_main_v28, ReferenceIdeal.Read.val_main_v30, ReferenceIdeal.Read.val_main_v27, ReferenceIdeal.Read.val_main_cst_7, ReferenceIdeal.Read.val_main_c_5, ReferenceIdeal.Read.val_main_c_6]
  rfl

/-! ## The edges' normaliser is computed once

The reference computes the normaliser of every edge anew in each layer, from the same inverse root degrees and the
same edge lists; the three terms differ only in the names of their constants. -/

/-- The second layer's normaliser is the first's. -/
theorem norm1 (x : (⟨ReferenceIdeal.S2x1600000, .i32⟩ : BufTy).Contents (Elt Ideal)) :
    ReferenceIdeal.Read.val_main_v64 (F := Ideal) x = ReferenceIdeal.Read.val_main_v26 (F := Ideal) x := by
  simp only [ReferenceIdeal.Read.val_main_v64, ReferenceIdeal.Read.val_main_v56, ReferenceIdeal.Read.val_main_v63, ReferenceIdeal.Read.val_main_v55, ReferenceIdeal.Read.val_main_v54, ReferenceIdeal.Read.val_main_v51, ReferenceIdeal.Read.val_main_v53, ReferenceIdeal.Read.val_main_v50, ReferenceIdeal.Read.val_main_v52, ReferenceIdeal.Read.val_main_v62, ReferenceIdeal.Read.val_main_v61, ReferenceIdeal.Read.val_main_v58, ReferenceIdeal.Read.val_main_v60, ReferenceIdeal.Read.val_main_v57, ReferenceIdeal.Read.val_main_v59, ReferenceIdeal.Read.val_main_c_8, ReferenceIdeal.Read.val_main_c_9, ReferenceIdeal.Read.val_main_c_10, ReferenceIdeal.Read.val_main_c_11, ReferenceIdeal.Read.val_main_v26, ReferenceIdeal.Read.val_main_v18, ReferenceIdeal.Read.val_main_v25, ReferenceIdeal.Read.val_main_v17, ReferenceIdeal.Read.val_main_v16, ReferenceIdeal.Read.val_main_v13, ReferenceIdeal.Read.val_main_v15, ReferenceIdeal.Read.val_main_v12, ReferenceIdeal.Read.val_main_v14, ReferenceIdeal.Read.val_main_v24, ReferenceIdeal.Read.val_main_v23, ReferenceIdeal.Read.val_main_v20, ReferenceIdeal.Read.val_main_v22, ReferenceIdeal.Read.val_main_v19, ReferenceIdeal.Read.val_main_v21, ReferenceIdeal.Read.val_main_c, ReferenceIdeal.Read.val_main_c_2, ReferenceIdeal.Read.val_main_c_3, ReferenceIdeal.Read.val_main_c_4]

/-- The third layer's normaliser is the first's. -/
theorem norm2 (x : (⟨ReferenceIdeal.S2x1600000, .i32⟩ : BufTy).Contents (Elt Ideal)) :
    ReferenceIdeal.Read.val_main_v102 (F := Ideal) x = ReferenceIdeal.Read.val_main_v26 (F := Ideal) x := by
  simp only [ReferenceIdeal.Read.val_main_v102, ReferenceIdeal.Read.val_main_v94, ReferenceIdeal.Read.val_main_v101, ReferenceIdeal.Read.val_main_v93, ReferenceIdeal.Read.val_main_v92, ReferenceIdeal.Read.val_main_v89, ReferenceIdeal.Read.val_main_v91, ReferenceIdeal.Read.val_main_v88, ReferenceIdeal.Read.val_main_v90, ReferenceIdeal.Read.val_main_v100, ReferenceIdeal.Read.val_main_v99, ReferenceIdeal.Read.val_main_v96, ReferenceIdeal.Read.val_main_v98, ReferenceIdeal.Read.val_main_v95, ReferenceIdeal.Read.val_main_v97, ReferenceIdeal.Read.val_main_c_15, ReferenceIdeal.Read.val_main_c_16, ReferenceIdeal.Read.val_main_c_17, ReferenceIdeal.Read.val_main_c_18, ReferenceIdeal.Read.val_main_v26, ReferenceIdeal.Read.val_main_v18, ReferenceIdeal.Read.val_main_v25, ReferenceIdeal.Read.val_main_v17, ReferenceIdeal.Read.val_main_v16, ReferenceIdeal.Read.val_main_v13, ReferenceIdeal.Read.val_main_v15, ReferenceIdeal.Read.val_main_v12, ReferenceIdeal.Read.val_main_v14, ReferenceIdeal.Read.val_main_v24, ReferenceIdeal.Read.val_main_v23, ReferenceIdeal.Read.val_main_v20, ReferenceIdeal.Read.val_main_v22, ReferenceIdeal.Read.val_main_v19, ReferenceIdeal.Read.val_main_v21, ReferenceIdeal.Read.val_main_c, ReferenceIdeal.Read.val_main_c_2, ReferenceIdeal.Read.val_main_c_3, ReferenceIdeal.Read.val_main_c_4]

/-! ## Through region 1 and the third stretch of host operations: what region 2 reads

Region 1 reads the first product, the first neighbour sum, the degrees, the first bias and the second weights, and
writes the second product twice. -/

/-- The edges' source nodes after region 1. -/
theorem W4_v1 : W4 m ρ c (Proc.devRef .tc main_v1) = ReferenceIdeal.Read.val_main_v1 (m ((c : Thread nD τ).loc main_arg1)) :=
  calc W4 m ρ c (Proc.devRef .tc main_v1)
    _ = W3 m ρ c (Proc.devRef .tc main_v1) := (W4_of_ne m ρ c main_v1 (by decide))
    _ = W2 m ρ c (Proc.devRef .tc main_v1) := (by stretch_keeps hostOps1)
    _ = ReferenceIdeal.Read.val_main_v1 (m ((c : Thread nD τ).loc main_arg1)) := W2_v1 m ρ c

/-- The edges' target nodes after region 1. -/
theorem W4_v3 : W4 m ρ c (Proc.devRef .tc main_v3) = ReferenceIdeal.Read.val_main_v3 (m ((c : Thread nD τ).loc main_arg1)) :=
  calc W4 m ρ c (Proc.devRef .tc main_v3)
    _ = W3 m ρ c (Proc.devRef .tc main_v3) := (W4_of_ne m ρ c main_v3 (by decide))
    _ = W2 m ρ c (Proc.devRef .tc main_v3) := (by stretch_keeps hostOps1)
    _ = ReferenceIdeal.Read.val_main_v3 (m ((c : Thread nD τ).loc main_arg1)) := W2_v3 m ρ c

/-- The edges' normalisers after region 1. -/
theorem W4_v27 : W4 m ρ c (Proc.devRef .tc main_v27) = ReferenceIdeal.Read.val_main_v26 (m ((c : Thread nD τ).loc main_arg1)) :=
  calc W4 m ρ c (Proc.devRef .tc main_v27)
    _ = W3 m ρ c (Proc.devRef .tc main_v27) := (W4_of_ne m ρ c main_v27 (by decide))
    _ = W2 m ρ c (Proc.devRef .tc main_v27) := (by stretch_keeps hostOps1)
    _ = ReferenceIdeal.Read.val_main_v26 (m ((c : Thread nD τ).loc main_arg1)) := W2_v27 m ρ c

/-- The third stretch does not write the second product: region 2 reads it as region 1 left it. -/
theorem V5_v43_0 : V5 m ρ c main_v43_0 = W4 m ρ c (Proc.devRef .tc main_v43_0) := by stretch_keeps hostOps2

/-- Region 2 reads the squared inverse root degrees: region 1 only read them. -/
theorem V5_v12 : V5 m ρ c main_v12 = ReferenceIdeal.Read.val_main_v41 (m ((c : Thread nD τ).loc main_arg1)) :=
  calc V5 m ρ c main_v12
    _ = W4 m ρ c (Proc.devRef .tc main_v12) := (by stretch_keeps hostOps2)
    _ = W3 m ρ c (Proc.devRef .tc main_v12) := ((W4_arr m ρ c 2).trans (((dat1 (V3 m ρ) c).arrAt_in 2 rfl _).trans (A_eq1 (V3 m ρ) c 2)))
    _ = ReferenceIdeal.Read.val_main_v41 (m ((c : Thread nD τ).loc main_arg1)) := V3_v12 m ρ c

/-- The second layer's bias reaches region 2 as launched. -/
theorem V5_arg6 : V5 m ρ c main_arg6 = m ((c : Thread nD τ).loc main_arg6) :=
  calc V5 m ρ c main_arg6
    _ = W4 m ρ c (Proc.devRef .tc main_arg6) := (by stretch_keeps hostOps2)
    _ = W3 m ρ c (Proc.devRef .tc main_arg6) := (W4_of_ne m ρ c main_arg6 (by decide))
    _ = W2 m ρ c (Proc.devRef .tc main_arg6) := (by stretch_keeps hostOps1)
    _ = W1 m ρ c (Proc.devRef .tc main_arg6) := (W2_of_ne m ρ c main_arg6 (by decide))
    _ = W0 m ρ c (Proc.devRef .tc main_arg6) := (by stretch_keeps hostOps0)
    _ = m ((c : Thread nD τ).loc main_arg6) := rfl

/-- The third layer's weights reach region 2 as launched. -/
theorem V5_arg7 : V5 m ρ c main_arg7 = m ((c : Thread nD τ).loc main_arg7) :=
  calc V5 m ρ c main_arg7
    _ = W4 m ρ c (Proc.devRef .tc main_arg7) := (by stretch_keeps hostOps2)
    _ = W3 m ρ c (Proc.devRef .tc main_arg7) := (W4_of_ne m ρ c main_arg7 (by decide))
    _ = W2 m ρ c (Proc.devRef .tc main_arg7) := (by stretch_keeps hostOps1)
    _ = W1 m ρ c (Proc.devRef .tc main_arg7) := (W2_of_ne m ρ c main_arg7 (by decide))
    _ = W0 m ρ c (Proc.devRef .tc main_arg7) := (by stretch_keeps hostOps0)
    _ = m ((c : Thread nD τ).loc main_arg7) := rfl

/-- The second layer's neighbour sum is the reference's, once region 1's reduced-width output is the reference's
    second product. -/
theorem agg1 (h : W4 m ρ c (Proc.devRef .tc main_v43_1) = ReferenceIdeal.Read.val_main_v49 (m ((c : Thread nD τ).loc main_arg0)) (m ((c : Thread nD τ).loc main_arg1)) (m ((c : Thread nD τ).loc main_arg3)) (m ((c : Thread nD τ).loc main_arg4)) (m ((c : Thread nD τ).loc main_arg5))) :
    V5 m ρ c main_v57 = ReferenceIdeal.Read.val_main_v77 (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 _ (Proc.devRef .tc main_v57) = _
  after_results_simp
  rw [W4_v1 m ρ c, W4_v3 m ρ c, W4_v27 m ρ c, h]
  simp only [ReferenceIdeal.Read.val_main_v77, ReferenceIdeal.Read.val_main_v75, ReferenceIdeal.Read.val_main_v76, ReferenceIdeal.Read.val_main_v74, ReferenceIdeal.Read.val_main_v72, ReferenceIdeal.Read.val_main_v71, ReferenceIdeal.Read.val_main_v70, ReferenceIdeal.Read.val_main_v67, ReferenceIdeal.Read.val_main_v66, ReferenceIdeal.Read.val_main_v69, ReferenceIdeal.Read.val_main_v68, ReferenceIdeal.Read.val_main_v73, ReferenceIdeal.Read.val_main_v65, ReferenceIdeal.Read.val_main_cst_14, ReferenceIdeal.Read.val_main_c_12, ReferenceIdeal.Read.val_main_c_13, norm1]
  rfl

/-! ## Through region 2 and the fourth stretch of host operations: what region 3 reads

Region 2 reads the second product, the second neighbour sum, the degrees, the second bias and the third weights,
and writes the third product twice. -/

/-- The edges' source nodes after region 2. -/
theorem W6_v1 : W6 m ρ c (Proc.devRef .tc main_v1) = ReferenceIdeal.Read.val_main_v1 (m ((c : Thread nD τ).loc main_arg1)) :=
  calc W6 m ρ c (Proc.devRef .tc main_v1)
    _ = W5 m ρ c (Proc.devRef .tc main_v1) := (W6_of_ne m ρ c main_v1 (by decide))
    _ = W4 m ρ c (Proc.devRef .tc main_v1) := (by stretch_keeps hostOps2)
    _ = ReferenceIdeal.Read.val_main_v1 (m ((c : Thread nD τ).loc main_arg1)) := W4_v1 m ρ c

/-- The edges' target nodes after region 2. -/
theorem W6_v3 : W6 m ρ c (Proc.devRef .tc main_v3) = ReferenceIdeal.Read.val_main_v3 (m ((c : Thread nD τ).loc main_arg1)) :=
  calc W6 m ρ c (Proc.devRef .tc main_v3)
    _ = W5 m ρ c (Proc.devRef .tc main_v3) := (W6_of_ne m ρ c main_v3 (by decide))
    _ = W4 m ρ c (Proc.devRef .tc main_v3) := (by stretch_keeps hostOps2)
    _ = ReferenceIdeal.Read.val_main_v3 (m ((c : Thread nD τ).loc main_arg1)) := W4_v3 m ρ c

/-- The edges' normalisers after region 2. -/
theorem W6_v27 : W6 m ρ c (Proc.devRef .tc main_v27) = ReferenceIdeal.Read.val_main_v26 (m ((c : Thread nD τ).loc main_arg1)) :=
  calc W6 m ρ c (Proc.devRef .tc main_v27)
    _ = W5 m ρ c (Proc.devRef .tc main_v27) := (W6_of_ne m ρ c main_v27 (by decide))
    _ = W4 m ρ c (Proc.devRef .tc main_v27) := (by stretch_keeps hostOps2)
    _ = ReferenceIdeal.Read.val_main_v26 (m ((c : Thread nD τ).loc main_arg1)) := W4_v27 m ρ c

/-- The fourth stretch does not write the third product: region 3 reads it as region 2 left it. -/
theorem V7_v58_0 : V7 m ρ c main_v58_0 = W6 m ρ c (Proc.devRef .tc main_v58_0) := by stretch_keeps hostOps3

/-- Region 3 reads the squared inverse root degrees: region 2 only read them. -/
theorem V7_v12 : V7 m ρ c main_v12 = ReferenceIdeal.Read.val_main_v41 (m ((c : Thread nD τ).loc main_arg1)) :=
  calc V7 m ρ c main_v12
    _ = W6 m ρ c (Proc.devRef .tc main_v12) := (by stretch_keeps hostOps3)
    _ = W5 m ρ c (Proc.devRef .tc main_v12) := ((W6_arr m ρ c 2).trans (((dat2 (V5 m ρ) c).arrAt_in 2 rfl _).trans (A_eq2 (V5 m ρ) c 2)))
    _ = ReferenceIdeal.Read.val_main_v41 (m ((c : Thread nD τ).loc main_arg1)) := V5_v12 m ρ c

/-- The third layer's bias reaches region 3 as launched. -/
theorem V7_arg8 : V7 m ρ c main_arg8 = m ((c : Thread nD τ).loc main_arg8) :=
  calc V7 m ρ c main_arg8
    _ = W6 m ρ c (Proc.devRef .tc main_arg8) := (by stretch_keeps hostOps3)
    _ = W5 m ρ c (Proc.devRef .tc main_arg8) := (W6_of_ne m ρ c main_arg8 (by decide))
    _ = W4 m ρ c (Proc.devRef .tc main_arg8) := (by stretch_keeps hostOps2)
    _ = W3 m ρ c (Proc.devRef .tc main_arg8) := (W4_of_ne m ρ c main_arg8 (by decide))
    _ = W2 m ρ c (Proc.devRef .tc main_arg8) := (by stretch_keeps hostOps1)
    _ = W1 m ρ c (Proc.devRef .tc main_arg8) := (W2_of_ne m ρ c main_arg8 (by decide))
    _ = W0 m ρ c (Proc.devRef .tc main_arg8) := (by stretch_keeps hostOps0)
    _ = m ((c : Thread nD τ).loc main_arg8) := rfl

/-- The third layer's neighbour sum is the reference's, once region 2's reduced-width output is the reference's
    third product. -/
theorem agg2 (h : W6 m ρ c (Proc.devRef .tc main_v58_1) = ReferenceIdeal.Read.val_main_v87 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :
    V7 m ρ c main_v72 = ReferenceIdeal.Read.val_main_v115 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 _ (Proc.devRef .tc main_v72) = _
  after_results_simp
  rw [W6_v1 m ρ c, W6_v3 m ρ c, W6_v27 m ρ c, h]
  simp only [ReferenceIdeal.Read.val_main_v115, ReferenceIdeal.Read.val_main_v113, ReferenceIdeal.Read.val_main_v114, ReferenceIdeal.Read.val_main_v112, ReferenceIdeal.Read.val_main_v110, ReferenceIdeal.Read.val_main_v109, ReferenceIdeal.Read.val_main_v108, ReferenceIdeal.Read.val_main_v105, ReferenceIdeal.Read.val_main_v104, ReferenceIdeal.Read.val_main_v107, ReferenceIdeal.Read.val_main_v106, ReferenceIdeal.Read.val_main_v111, ReferenceIdeal.Read.val_main_v103, ReferenceIdeal.Read.val_main_cst_21, ReferenceIdeal.Read.val_main_c_19, ReferenceIdeal.Read.val_main_c_20, norm2]
  rfl

/-! ## Through region 3 and the last stretch of host operations: what region 4 reads

Region 3 reads the third product, the third neighbour sum, the degrees and the third bias, and writes the node
embeddings at reduced width. The last stretch gathers them at the two endpoints of every edge, narrows the edge
features and cuts the edge network's first weight matrix into its three row blocks. -/

/-- The edges' source nodes after region 3. -/
theorem W8_v1 : W8 m ρ c (Proc.devRef .tc main_v1) = ReferenceIdeal.Read.val_main_v1 (m ((c : Thread nD τ).loc main_arg1)) :=
  calc W8 m ρ c (Proc.devRef .tc main_v1)
    _ = W7 m ρ c (Proc.devRef .tc main_v1) := (W8_of_ne m ρ c main_v1 (by decide))
    _ = W6 m ρ c (Proc.devRef .tc main_v1) := (by stretch_keeps hostOps3)
    _ = ReferenceIdeal.Read.val_main_v1 (m ((c : Thread nD τ).loc main_arg1)) := W6_v1 m ρ c

/-- The edges' target nodes after region 3. -/
theorem W8_v3 : W8 m ρ c (Proc.devRef .tc main_v3) = ReferenceIdeal.Read.val_main_v3 (m ((c : Thread nD τ).loc main_arg1)) :=
  calc W8 m ρ c (Proc.devRef .tc main_v3)
    _ = W7 m ρ c (Proc.devRef .tc main_v3) := (W8_of_ne m ρ c main_v3 (by decide))
    _ = W6 m ρ c (Proc.devRef .tc main_v3) := (by stretch_keeps hostOps3)
    _ = ReferenceIdeal.Read.val_main_v3 (m ((c : Thread nD τ).loc main_arg1)) := W6_v3 m ρ c

/-- The edge features are as launched after region 3. -/
theorem W8_arg2 : W8 m ρ c (Proc.devRef .tc main_arg2) = m ((c : Thread nD τ).loc main_arg2) :=
  calc W8 m ρ c (Proc.devRef .tc main_arg2)
    _ = W7 m ρ c (Proc.devRef .tc main_arg2) := (W8_of_ne m ρ c main_arg2 (by decide))
    _ = W6 m ρ c (Proc.devRef .tc main_arg2) := (by stretch_keeps hostOps3)
    _ = W5 m ρ c (Proc.devRef .tc main_arg2) := (W6_of_ne m ρ c main_arg2 (by decide))
    _ = W4 m ρ c (Proc.devRef .tc main_arg2) := (by stretch_keeps hostOps2)
    _ = W3 m ρ c (Proc.devRef .tc main_arg2) := (W4_of_ne m ρ c main_arg2 (by decide))
    _ = W2 m ρ c (Proc.devRef .tc main_arg2) := (by stretch_keeps hostOps1)
    _ = W1 m ρ c (Proc.devRef .tc main_arg2) := (W2_of_ne m ρ c main_arg2 (by decide))
    _ = W0 m ρ c (Proc.devRef .tc main_arg2) := (by stretch_keeps hostOps0)
    _ = m ((c : Thread nD τ).loc main_arg2) := rfl

/-- The edge network's first weight matrix is as launched after region 3. -/
theorem W8_arg9 : W8 m ρ c (Proc.devRef .tc main_arg9) = m ((c : Thread nD τ).loc main_arg9) :=
  calc W8 m ρ c (Proc.devRef .tc main_arg9)
    _ = W7 m ρ c (Proc.devRef .tc main_arg9) := (W8_of_ne m ρ c main_arg9 (by decide))
    _ = W6 m ρ c (Proc.devRef .tc main_arg9) := (by stretch_keeps hostOps3)
    _ = W5 m ρ c (Proc.devRef .tc main_arg9) := (W6_of_ne m ρ c main_arg9 (by decide))
    _ = W4 m ρ c (Proc.devRef .tc main_arg9) := (by stretch_keeps hostOps2)
    _ = W3 m ρ c (Proc.devRef .tc main_arg9) := (W4_of_ne m ρ c main_arg9 (by decide))
    _ = W2 m ρ c (Proc.devRef .tc main_arg9) := (by stretch_keeps hostOps1)
    _ = W1 m ρ c (Proc.devRef .tc main_arg9) := (W2_of_ne m ρ c main_arg9 (by decide))
    _ = W0 m ρ c (Proc.devRef .tc main_arg9) := (by stretch_keeps hostOps0)
    _ = m ((c : Thread nD τ).loc main_arg9) := rfl

/-- The embeddings gathered at the edges' source nodes are the reference's, once region 3's output is the
    reference's embeddings. -/
theorem gu (h : W8 m ρ c (Proc.devRef .tc main_v73) = ReferenceIdeal.Read.val_main_v124 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    V9 m ρ c main_v80 = ReferenceIdeal.Read.val_main_v131 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4 _ (Proc.devRef .tc main_v80) = _
  after_results_simp
  rw [W8_v1 m ρ c, h]
  simp only [ReferenceIdeal.Read.val_main_v131, ReferenceIdeal.Read.val_main_v130, ReferenceIdeal.Read.val_main_v129, ReferenceIdeal.Read.val_main_v126, ReferenceIdeal.Read.val_main_v125, ReferenceIdeal.Read.val_main_v128, ReferenceIdeal.Read.val_main_v127, ReferenceIdeal.Read.val_main_c_22, ReferenceIdeal.Read.val_main_c_23]
  rfl

/-- The embeddings gathered at the edges' target nodes are the reference's, under the same hypothesis. -/
theorem gv (h : W8 m ρ c (Proc.devRef .tc main_v73) = ReferenceIdeal.Read.val_main_v124 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    V9 m ρ c main_v87 = ReferenceIdeal.Read.val_main_v138 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4 _ (Proc.devRef .tc main_v87) = _
  after_results_simp
  rw [W8_v3 m ρ c, h]
  simp only [ReferenceIdeal.Read.val_main_v138, ReferenceIdeal.Read.val_main_v137, ReferenceIdeal.Read.val_main_v136, ReferenceIdeal.Read.val_main_v133, ReferenceIdeal.Read.val_main_v132, ReferenceIdeal.Read.val_main_v135, ReferenceIdeal.Read.val_main_v134, ReferenceIdeal.Read.val_main_c_24, ReferenceIdeal.Read.val_main_c_25]
  rfl

/-- The narrowed edge features are the edge features: narrowing is the identity on the extended reals. -/
theorem V9_v88 : V9 m ρ c main_v88 = (m ((c : Thread nD τ).loc main_arg2)) := by
  show StableHlo.after hostOps4 _ (Proc.devRef .tc main_v88) = _
  after_results_simp
  rw [W8_arg2 m ρ c]
  rfl

/-- The first row block of the edge network's first weight matrix (rows 0 … 63). -/
theorem V9_v89 : V9 m ρ c main_v89 = extractStridedSlice S64x64 ![0, 0] (m ((c : Thread nD τ).loc main_arg9)) slices_S136x64_S64x64_0_0 := by
  show StableHlo.after hostOps4 _ (Proc.devRef .tc main_v89) = _
  after_results_simp
  rw [W8_arg9 m ρ c]

/-- Its second row block (rows 64 … 127). -/
theorem V9_v90 : V9 m ρ c main_v90 = extractStridedSlice S64x64 ![64, 0] (m ((c : Thread nD τ).loc main_arg9)) slices_S136x64_S64x64_64_0 := by
  show StableHlo.after hostOps4 _ (Proc.devRef .tc main_v90) = _
  after_results_simp
  rw [W8_arg9 m ρ c]

/-- Its third row block (rows 128 … 135). -/
theorem V9_v91 : V9 m ρ c main_v91 = extractStridedSlice S8x64 ![128, 0] (m ((c : Thread nD τ).loc main_arg9)) slices_S136x64_S8x64_128_0 := by
  show StableHlo.after hostOps4 _ (Proc.devRef .tc main_v91) = _
  after_results_simp
  rw [W8_arg9 m ρ c]

/-- Argument 10 of the edge network reaches region 4 as launched. -/
theorem V9_arg10 : V9 m ρ c main_arg10 = m ((c : Thread nD τ).loc main_arg10) :=
  calc V9 m ρ c main_arg10
    _ = W8 m ρ c (Proc.devRef .tc main_arg10) := (by stretch_keeps hostOps4)
    _ = W7 m ρ c (Proc.devRef .tc main_arg10) := (W8_of_ne m ρ c main_arg10 (by decide))
    _ = W6 m ρ c (Proc.devRef .tc main_arg10) := (by stretch_keeps hostOps3)
    _ = W5 m ρ c (Proc.devRef .tc main_arg10) := (W6_of_ne m ρ c main_arg10 (by decide))
    _ = W4 m ρ c (Proc.devRef .tc main_arg10) := (by stretch_keeps hostOps2)
    _ = W3 m ρ c (Proc.devRef .tc main_arg10) := (W4_of_ne m ρ c main_arg10 (by decide))
    _ = W2 m ρ c (Proc.devRef .tc main_arg10) := (by stretch_keeps hostOps1)
    _ = W1 m ρ c (Proc.devRef .tc main_arg10) := (W2_of_ne m ρ c main_arg10 (by decide))
    _ = W0 m ρ c (Proc.devRef .tc main_arg10) := (by stretch_keeps hostOps0)
    _ = m ((c : Thread nD τ).loc main_arg10) := rfl

/-- Argument 11 of the edge network reaches region 4 as launched. -/
theorem V9_arg11 : V9 m ρ c main_arg11 = m ((c : Thread nD τ).loc main_arg11) :=
  calc V9 m ρ c main_arg11
    _ = W8 m ρ c (Proc.devRef .tc main_arg11) := (by stretch_keeps hostOps4)
    _ = W7 m ρ c (Proc.devRef .tc main_arg11) := (W8_of_ne m ρ c main_arg11 (by decide))
    _ = W6 m ρ c (Proc.devRef .tc main_arg11) := (by stretch_keeps hostOps3)
    _ = W5 m ρ c (Proc.devRef .tc main_arg11) := (W6_of_ne m ρ c main_arg11 (by decide))
    _ = W4 m ρ c (Proc.devRef .tc main_arg11) := (by stretch_keeps hostOps2)
    _ = W3 m ρ c (Proc.devRef .tc main_arg11) := (W4_of_ne m ρ c main_arg11 (by decide))
    _ = W2 m ρ c (Proc.devRef .tc main_arg11) := (by stretch_keeps hostOps1)
    _ = W1 m ρ c (Proc.devRef .tc main_arg11) := (W2_of_ne m ρ c main_arg11 (by decide))
    _ = W0 m ρ c (Proc.devRef .tc main_arg11) := (by stretch_keeps hostOps0)
    _ = m ((c : Thread nD τ).loc main_arg11) := rfl

/-- Argument 12 of the edge network reaches region 4 as launched. -/
theorem V9_arg12 : V9 m ρ c main_arg12 = m ((c : Thread nD τ).loc main_arg12) :=
  calc V9 m ρ c main_arg12
    _ = W8 m ρ c (Proc.devRef .tc main_arg12) := (by stretch_keeps hostOps4)
    _ = W7 m ρ c (Proc.devRef .tc main_arg12) := (W8_of_ne m ρ c main_arg12 (by decide))
    _ = W6 m ρ c (Proc.devRef .tc main_arg12) := (by stretch_keeps hostOps3)
    _ = W5 m ρ c (Proc.devRef .tc main_arg12) := (W6_of_ne m ρ c main_arg12 (by decide))
    _ = W4 m ρ c (Proc.devRef .tc main_arg12) := (by stretch_keeps hostOps2)
    _ = W3 m ρ c (Proc.devRef .tc main_arg12) := (W4_of_ne m ρ c main_arg12 (by decide))
    _ = W2 m ρ c (Proc.devRef .tc main_arg12) := (by stretch_keeps hostOps1)
    _ = W1 m ρ c (Proc.devRef .tc main_arg12) := (W2_of_ne m ρ c main_arg12 (by decide))
    _ = W0 m ρ c (Proc.devRef .tc main_arg12) := (by stretch_keeps hostOps0)
    _ = m ((c : Thread nD τ).loc main_arg12) := rfl

/-- Argument 13 of the edge network reaches region 4 as launched. -/
theorem V9_arg13 : V9 m ρ c main_arg13 = m ((c : Thread nD τ).loc main_arg13) :=
  calc V9 m ρ c main_arg13
    _ = W8 m ρ c (Proc.devRef .tc main_arg13) := (by stretch_keeps hostOps4)
    _ = W7 m ρ c (Proc.devRef .tc main_arg13) := (W8_of_ne m ρ c main_arg13 (by decide))
    _ = W6 m ρ c (Proc.devRef .tc main_arg13) := (by stretch_keeps hostOps3)
    _ = W5 m ρ c (Proc.devRef .tc main_arg13) := (W6_of_ne m ρ c main_arg13 (by decide))
    _ = W4 m ρ c (Proc.devRef .tc main_arg13) := (by stretch_keeps hostOps2)
    _ = W3 m ρ c (Proc.devRef .tc main_arg13) := (W4_of_ne m ρ c main_arg13 (by decide))
    _ = W2 m ρ c (Proc.devRef .tc main_arg13) := (by stretch_keeps hostOps1)
    _ = W1 m ρ c (Proc.devRef .tc main_arg13) := (W2_of_ne m ρ c main_arg13 (by decide))
    _ = W0 m ρ c (Proc.devRef .tc main_arg13) := (by stretch_keeps hostOps0)
    _ = m ((c : Thread nD τ).loc main_arg13) := rfl

/-- Argument 14 of the edge network reaches region 4 as launched. -/
theorem V9_arg14 : V9 m ρ c main_arg14 = m ((c : Thread nD τ).loc main_arg14) :=
  calc V9 m ρ c main_arg14
    _ = W8 m ρ c (Proc.devRef .tc main_arg14) := (by stretch_keeps hostOps4)
    _ = W7 m ρ c (Proc.devRef .tc main_arg14) := (W8_of_ne m ρ c main_arg14 (by decide))
    _ = W6 m ρ c (Proc.devRef .tc main_arg14) := (by stretch_keeps hostOps3)
    _ = W5 m ρ c (Proc.devRef .tc main_arg14) := (W6_of_ne m ρ c main_arg14 (by decide))
    _ = W4 m ρ c (Proc.devRef .tc main_arg14) := (by stretch_keeps hostOps2)
    _ = W3 m ρ c (Proc.devRef .tc main_arg14) := (W4_of_ne m ρ c main_arg14 (by decide))
    _ = W2 m ρ c (Proc.devRef .tc main_arg14) := (by stretch_keeps hostOps1)
    _ = W1 m ρ c (Proc.devRef .tc main_arg14) := (W2_of_ne m ρ c main_arg14 (by decide))
    _ = W0 m ρ c (Proc.devRef .tc main_arg14) := (by stretch_keeps hostOps0)
    _ = m ((c : Thread nD τ).loc main_arg14) := rfl

end Cert.KernelIdeal.Walk

end
-- ==== Proof.RefStages.lean ====
/-
  The reference program's dense stages are the stage functions.

  Each theorem reads one value of the reference program at an index: a matrix product is the sum over the
  contracted axis, the pointwise operations act entry by entry, and a broadcast reads its operand at the
  coordinates it keeps.  The neighbour sums and the gathered rows stay as they are on both sides.
-/
import proofs.«130208_j24927990186114_2_alg».proof.Proof.Gen.ReferenceIdeal.Read
import proofs.«130208_j24927990186114_2_alg».proof.Proof.Stages
import Idealize.ShloMosaic.Lib.ValueIdx
import Idealize.ShloMosaic.Lib.Pipeline.Value
import Idealize.ShloMosaic.PureOps.Ideal.Laws

noncomputable section

namespace Cert.RefStages

open Cert.ReferenceIdeal Cert.ReferenceIdeal.Read Cert.Stages Idealize.ShloMosaic Idealize.ShloMosaic.ValueIdx

/-- A rank-2 index is determined by its two coordinates. -/
theorem idx2_ext {n0 n1 : Nat} (p q : (⟨2, ![n0, n1]⟩ : Shape).Idx) (h0 : p 0 = q 0) (h1 : p 1 = q 1) : p = q := by
  funext a; match a with | ⟨0, _⟩ => exact h0 | ⟨1, _⟩ => exact h1

/-- A rank-1 index is determined by its coordinate. -/
theorem idx1_ext {n : Nat} (p q : (⟨1, ![n]⟩ : Shape).Idx) (h0 : p 0 = q 0) : p = q := by
  funext a; match a with | ⟨0, _⟩ => exact h0

/-- The first layer's linear map: row r of X times W0. -/
theorem stage_hw0 (x0 : (⟨S100000x32, .f32⟩ : BufTy).Contents (Elt Ideal)) (x3 : (⟨S32x64, .f32⟩ : BufTy).Contents (Elt Ideal)) :
    val_main_v11 (F := Ideal) x0 x3 = rowsTimes x0 x3 := by
  funext i
  rw [val_main_v11_apply]
  unfold rowsTimes
  refine Finset.sum_congr rfl fun k _ => ?_
  have el : lidx_main_v11 i k = ix2 (n0 := 100000) (n1 := 32) (i 0) k := idx2_ext _ _ rfl rfl
  have er : ridx_main_v11 i k = ix2 (n0 := 32) (n1 := 64) k (i 1) := idx2_ext _ _ rfl rfl
  rw [el, er] <;> rfl

/-- The first layer's activation, entry by entry: the scaled product joins the neighbour sum, then bias and relu. -/
theorem act1 (x0 : (⟨S100000x32, .f32⟩ : BufTy).Contents (Elt Ideal)) (x1 : (⟨S2x1600000, .i32⟩ : BufTy).Contents (Elt Ideal)) (x3 : (⟨S32x64, .f32⟩ : BufTy).Contents (Elt Ideal)) (x4 : (⟨S64, .f32⟩ : BufTy).Contents (Elt Ideal)) (j : S100000x64.Idx) :
    val_main_v48 (F := Ideal) x0 x1 x3 x4 j
      = convAct (val_main_v11 (F := Ideal) x0 x3) (val_main_v39 (F := Ideal) x0 x1 x3) (val_main_v41 (F := Ideal) x1) x4 j := by
  rw [val_main_v48_apply, val_main_v47_apply, val_main_v44_apply, val_main_v43_apply, val_main_v42_apply,
    val_main_v46_apply, val_main_v45_apply, val_main_call0_v0_apply, val_main_call0_cst_apply]
  generalize val_main_v39 (F := Ideal) x0 x1 x3 = AGG
  generalize val_main_v11 (F := Ideal) x0 x3 = HW
  generalize val_main_v41 (F := Ideal) x1 = D2
  have e1 : idx_main_v42 j = ix2 (j 0) (0 : Fin 1) := idx2_ext _ _ rfl rfl
  have e2 : idx_main_v45 (idx_main_v46 j) = ix1 (j 1) := idx1_ext _ _ rfl
  rw [e1, e2]
  rfl

/-- The second layer's linear map applied to the first layer's activation. -/
theorem stage_hw1 (x0 : (⟨S100000x32, .f32⟩ : BufTy).Contents (Elt Ideal)) (x1 : (⟨S2x1600000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) :
    val_main_v49 (F := Ideal) x0 x1 x3 x4 x5
      = convActTimes (val_main_v11 (F := Ideal) x0 x3) (val_main_v39 (F := Ideal) x0 x1 x3) (val_main_v41 (F := Ideal) x1) x4 x5 := by
  funext i
  rw [val_main_v49_apply]
  unfold convActTimes rowsTimes
  refine Finset.sum_congr rfl fun k _ => ?_
  have el : lidx_main_v49 i k = ix2 (n0 := 100000) (n1 := 64) (i 0) k := idx2_ext _ _ rfl rfl
  have er : ridx_main_v49 i k = ix2 (n0 := 64) (n1 := 64) k (i 1) := idx2_ext _ _ rfl rfl
  rw [el, er, act1] <;> rfl

/-- The second layer's activation, entry by entry. -/
theorem act2 (x0 : (⟨S100000x32, .f32⟩ : BufTy).Contents (Elt Ideal)) (x1 : (⟨S2x1600000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (j : S100000x64.Idx) :
    val_main_v86 (F := Ideal) x0 x1 x3 x4 x5 x6 j
      = convAct (val_main_v49 (F := Ideal) x0 x1 x3 x4 x5) (val_main_v77 (F := Ideal) x0 x1 x3 x4 x5) (val_main_v79 (F := Ideal) x1) x6 j := by
  rw [val_main_v86_apply, val_main_v85_apply, val_main_v82_apply, val_main_v81_apply, val_main_v80_apply,
    val_main_v84_apply, val_main_v83_apply, val_main_call1_v0_apply, val_main_call1_cst_apply]
  generalize val_main_v77 (F := Ideal) x0 x1 x3 x4 x5 = AGG
  generalize val_main_v49 (F := Ideal) x0 x1 x3 x4 x5 = HW
  generalize val_main_v79 (F := Ideal) x1 = D2
  have e1 : idx_main_v80 j = ix2 (j 0) (0 : Fin 1) := idx2_ext _ _ rfl rfl
  have e2 : idx_main_v83 (idx_main_v84 j) = ix1 (j 1) := idx1_ext _ _ rfl
  rw [e1, e2]
  rfl

/-- The third layer's linear map applied to the second layer's activation. -/
theorem stage_hw2 (x0 : (⟨S100000x32, .f32⟩ : BufTy).Contents (Elt Ideal)) (x1 : (⟨S2x1600000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v87 (F := Ideal) x0 x1 x3 x4 x5 x6 x7
      = convActTimes (val_main_v49 (F := Ideal) x0 x1 x3 x4 x5) (val_main_v77 (F := Ideal) x0 x1 x3 x4 x5) (val_main_v79 (F := Ideal) x1) x6 x7 := by
  funext i
  rw [val_main_v87_apply]
  unfold convActTimes rowsTimes
  refine Finset.sum_congr rfl fun k _ => ?_
  have el : lidx_main_v87 i k = ix2 (n0 := 100000) (n1 := 64) (i 0) k := idx2_ext _ _ rfl rfl
  have er : ridx_main_v87 i k = ix2 (n0 := 64) (n1 := 64) k (i 1) := idx2_ext _ _ rfl rfl
  rw [el, er, act2] <;> rfl

/-- The third layer's activation, entry by entry. -/
theorem act3 (x0 : (⟨S100000x32, .f32⟩ : BufTy).Contents (Elt Ideal)) (x1 : (⟨S2x1600000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (j : S100000x64.Idx) :
    val_main_v124 (F := Ideal) x0 x1 x3 x4 x5 x6 x7 x8 j
      = convAct (val_main_v87 (F := Ideal) x0 x1 x3 x4 x5 x6 x7) (val_main_v115 (F := Ideal) x0 x1 x3 x4 x5 x6 x7) (val_main_v117 (F := Ideal) x1) x8 j := by
  rw [val_main_v124_apply, val_main_v123_apply, val_main_v120_apply, val_main_v119_apply, val_main_v118_apply,
    val_main_v122_apply, val_main_v121_apply, val_main_call2_v0_apply, val_main_call2_cst_apply]
  generalize val_main_v115 (F := Ideal) x0 x1 x3 x4 x5 x6 x7 = AGG
  generalize val_main_v87 (F := Ideal) x0 x1 x3 x4 x5 x6 x7 = HW
  generalize val_main_v117 (F := Ideal) x1 = D2
  have e1 : idx_main_v118 j = ix2 (j 0) (0 : Fin 1) := idx2_ext _ _ rfl rfl
  have e2 : idx_main_v121 (idx_main_v122 j) = ix1 (j 1) := idx1_ext _ _ rfl
  rw [e1, e2]
  rfl

/-- The node embeddings: the third layer's activation. -/
theorem stage_h3 (x0 : (⟨S100000x32, .f32⟩ : BufTy).Contents (Elt Ideal)) (x1 : (⟨S2x1600000, .i32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v124 (F := Ideal) x0 x1 x3 x4 x5 x6 x7 x8
      = convAct (val_main_v87 (F := Ideal) x0 x1 x3 x4 x5 x6 x7) (val_main_v115 (F := Ideal) x0 x1 x3 x4 x5 x6 x7) (val_main_v117 (F := Ideal) x1) x8 := by
  funext j
  exact act3 x0 x1 x3 x4 x5 x6 x7 x8 j

/-! ### The edge network

The joined matrix [HU | HV | EF] has 136 columns; its product with the 136-row weight matrix is the sum of the three
products of the blocks with the matching row blocks of the weights, since a sum over 136 terms is the sum of its
first 64, next 64 and last 8 terms. -/

/-- A sum of 136 terms, cut into its first 64, next 64 and last 8. -/
theorem sum_split136 (f : Fin 136 → EReal) :
    ∑ k : Fin 136, f k
      = (∑ k : Fin 64, f ⟨k.val, by omega⟩ + ∑ k : Fin 64, f ⟨64 + k.val, by omega⟩) + ∑ k : Fin 8, f ⟨128 + k.val, by omega⟩ := by
  have h1 : ∑ k : Fin 136, f k = ∑ i : Fin 128, f (Fin.castAdd 8 i) + ∑ i : Fin 8, f (Fin.natAdd 128 i) :=
    Fin.sum_univ_add (a := 128) (b := 8) f
  have h2 : ∑ i : Fin 128, f (Fin.castAdd 8 i)
      = ∑ i : Fin 64, f (Fin.castAdd 8 (Fin.castAdd 64 i)) + ∑ i : Fin 64, f (Fin.castAdd 8 (Fin.natAdd 64 i)) :=
    Fin.sum_univ_add (a := 64) (b := 64) fun i => f (Fin.castAdd 8 i)
  rw [h1, h2]
  rfl

section Join
variable (A B : (⟨2, ![1600000, 64]⟩ : Shape).Idx → EReal) (C : (⟨2, ![1600000, 8]⟩ : Shape).Idx → EReal)
  (hc : Shape.Concatenates [S1600000x64, S1600000x64, S1600000x8] S1600000x136 1)

/-- The joined matrix at a column below 64 is the first block. -/
theorem join_read0 (j : S1600000x136.Idx) (k : Fin 64) (hk : (j 1).val = k.val) :
    concatenate S1600000x136 1 [⟨S1600000x64, A⟩, ⟨S1600000x64, B⟩, ⟨S1600000x8, C⟩] hc j = A (ix2 (j 0) k) :=
  concatenate_apply_piece (1 : Fin S1600000x136.rank) [⟨S1600000x64, A⟩, ⟨S1600000x64, B⟩, ⟨S1600000x8, C⟩] hc j 0 (by show 0 < 3; omega) S1600000x64 A rfl rfl 0 rfl (ix2 (j 0) k)
    (fun b => match b with
      | ⟨0, _⟩ => fun _ => rfl
      | ⟨1, _⟩ => fun hb => absurd rfl hb)
    (by show 0 + k.val = (j 1).val; omega)

/-- The joined matrix at a column 64 + k, k below 64, is the second block at column k. -/
theorem join_read1 (j : S1600000x136.Idx) (k : Fin 64) (hk : (j 1).val = 64 + k.val) :
    concatenate S1600000x136 1 [⟨S1600000x64, A⟩, ⟨S1600000x64, B⟩, ⟨S1600000x8, C⟩] hc j = B (ix2 (j 0) k) :=
  concatenate_apply_piece (1 : Fin S1600000x136.rank) [⟨S1600000x64, A⟩, ⟨S1600000x64, B⟩, ⟨S1600000x8, C⟩] hc j 1 (by show 1 < 3; omega) S1600000x64 B rfl rfl 64 rfl (ix2 (j 0) k)
    (fun b => match b with
      | ⟨0, _⟩ => fun _ => rfl
      | ⟨1, _⟩ => fun hb => absurd rfl hb)
    (by show 64 + k.val = (j 1).val; omega)

/-- The joined matrix at a column 128 + k, k below 8, is the third block at column k. -/
theorem join_read2 (j : S1600000x136.Idx) (k : Fin 8) (hk : (j 1).val = 128 + k.val) :
    concatenate S1600000x136 1 [⟨S1600000x64, A⟩, ⟨S1600000x64, B⟩, ⟨S1600000x8, C⟩] hc j = C (ix2 (j 0) k) :=
  concatenate_apply_piece (1 : Fin S1600000x136.rank) [⟨S1600000x64, A⟩, ⟨S1600000x64, B⟩, ⟨S1600000x8, C⟩] hc j 2 (by show 2 < 3; omega) S1600000x8 C rfl rfl 128 rfl (ix2 (j 0) k)
    (fun b => match b with
      | ⟨0, _⟩ => fun _ => rfl
      | ⟨1, _⟩ => fun hb => absurd rfl hb)
    (by show 128 + k.val = (j 1).val; omega)

/-- Row r of the joined matrix times the weights is the sum of the three block products. -/
theorem joined_rows (W : (⟨2, ![136, 64]⟩ : Shape).Idx → EReal) (h0 : S136x64.Slices ![0, 0] (⟨2, ![64, 64]⟩ : Shape)) (h64 : S136x64.Slices ![64, 0] (⟨2, ![64, 64]⟩ : Shape)) (h128 : S136x64.Slices ![128, 0] (⟨2, ![8, 64]⟩ : Shape)) (j : S1600000x64.Idx) :
    ∑ k : Fin 136, concatenate S1600000x136 1 [⟨S1600000x64, A⟩, ⟨S1600000x64, B⟩, ⟨S1600000x8, C⟩] hc (lidx_main_v140 j k)
        * W (ridx_main_v140 j k)
      = (rowsTimes A (extractStridedSlice (⟨2, ![64, 64]⟩ : Shape) ![0, 0] W h0) j + rowsTimes B (extractStridedSlice (⟨2, ![64, 64]⟩ : Shape) ![64, 0] W h64) j)
          + rowsTimes C (extractStridedSlice (⟨2, ![8, 64]⟩ : Shape) ![128, 0] W h128) j := by
  rw [sum_split136]
  unfold rowsTimes
  have s0 : ∀ k : Fin 64,
      concatenate S1600000x136 1 [⟨S1600000x64, A⟩, ⟨S1600000x64, B⟩, ⟨S1600000x8, C⟩] hc (lidx_main_v140 j ⟨k.val, by omega⟩)
          * W (ridx_main_v140 j ⟨k.val, by omega⟩)
        = A (ix2 (j 0) k) * extractStridedSlice (⟨2, ![64, 64]⟩ : Shape) ![0, 0] W h0 (ix2 k (j 1)) := fun k => by
    have eA : concatenate S1600000x136 1 [⟨S1600000x64, A⟩, ⟨S1600000x64, B⟩, ⟨S1600000x8, C⟩] hc (lidx_main_v140 j ⟨k.val, by omega⟩) = A (ix2 (j 0) k) :=
      join_read0 A B C hc _ k rfl
    have eW : extractStridedSlice (⟨2, ![64, 64]⟩ : Shape) ![0, 0] W h0 (ix2 k (j 1)) = W (ridx_main_v140 j ⟨k.val, by omega⟩) :=
      extractStridedSlice_apply ![0, 0] W h0 (ix2 k (j 1)) (ridx_main_v140 j ⟨k.val, by omega⟩) (fun a => match a with
        | ⟨0, _⟩ => by show k.val = 0 + k.val; omega
        | ⟨1, _⟩ => by show (j 1).val = 0 + (j 1).val; omega)
    rw [eA, eW]
  have s1 : ∀ k : Fin 64,
      concatenate S1600000x136 1 [⟨S1600000x64, A⟩, ⟨S1600000x64, B⟩, ⟨S1600000x8, C⟩] hc (lidx_main_v140 j ⟨64 + k.val, by omega⟩)
          * W (ridx_main_v140 j ⟨64 + k.val, by omega⟩)
        = B (ix2 (j 0) k) * extractStridedSlice (⟨2, ![64, 64]⟩ : Shape) ![64, 0] W h64 (ix2 k (j 1)) := fun k => by
    have eA : concatenate S1600000x136 1 [⟨S1600000x64, A⟩, ⟨S1600000x64, B⟩, ⟨S1600000x8, C⟩] hc (lidx_main_v140 j ⟨64 + k.val, by omega⟩) = B (ix2 (j 0) k) :=
      join_read1 A B C hc _ k rfl
    have eW : extractStridedSlice (⟨2, ![64, 64]⟩ : Shape) ![64, 0] W h64 (ix2 k (j 1)) = W (ridx_main_v140 j ⟨64 + k.val, by omega⟩) :=
      extractStridedSlice_apply ![64, 0] W h64 (ix2 k (j 1)) (ridx_main_v140 j ⟨64 + k.val, by omega⟩) (fun a => match a with
        | ⟨0, _⟩ => by show 64 + k.val = 64 + k.val; omega
        | ⟨1, _⟩ => by show (j 1).val = 0 + (j 1).val; omega)
    rw [eA, eW]
  have s2 : ∀ k : Fin 8,
      concatenate S1600000x136 1 [⟨S1600000x64, A⟩, ⟨S1600000x64, B⟩, ⟨S1600000x8, C⟩] hc (lidx_main_v140 j ⟨128 + k.val, by omega⟩)
          * W (ridx_main_v140 j ⟨128 + k.val, by omega⟩)
        = C (ix2 (j 0) k) * extractStridedSlice (⟨2, ![8, 64]⟩ : Shape) ![128, 0] W h128 (ix2 k (j 1)) := fun k => by
    have eA : concatenate S1600000x136 1 [⟨S1600000x64, A⟩, ⟨S1600000x64, B⟩, ⟨S1600000x8, C⟩] hc (lidx_main_v140 j ⟨128 + k.val, by omega⟩) = C (ix2 (j 0) k) :=
      join_read2 A B C hc _ k rfl
    have eW : extractStridedSlice (⟨2, ![8, 64]⟩ : Shape) ![128, 0] W h128 (ix2 k (j 1)) = W (ridx_main_v140 j ⟨128 + k.val, by omega⟩) :=
      extractStridedSlice_apply ![128, 0] W h128 (ix2 k (j 1)) (ridx_main_v140 j ⟨128 + k.val, by omega⟩) (fun a => match a with
        | ⟨0, _⟩ => by show 128 + k.val = 128 + k.val; omega
        | ⟨1, _⟩ => by show (j 1).val = 0 + (j 1).val; omega)
    rw [eA, eW]
  rw [Finset.sum_congr rfl fun k _ => s0 k, Finset.sum_congr rfl fun k _ => s1 k, Finset.sum_congr rfl fun k _ => s2 k]

end Join

/-- The edge network's first hidden layer, entry by entry. -/
theorem hidden1 (x0 : (⟨S100000x32, .f32⟩ : BufTy).Contents (Elt Ideal)) (x1 : (⟨S2x1600000, .i32⟩ : BufTy).Contents (Elt Ideal)) (x2 : (⟨S1600000x8, .f32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S136x64, .f32⟩ : BufTy).Contents (Elt Ideal)) (x10 : (⟨S64, .f32⟩ : BufTy).Contents (Elt Ideal)) (h0 : S136x64.Slices ![0, 0] (⟨2, ![64, 64]⟩ : Shape)) (h64 : S136x64.Slices ![64, 0] (⟨2, ![64, 64]⟩ : Shape)) (h128 : S136x64.Slices ![128, 0] (⟨2, ![8, 64]⟩ : Shape)) (j : S1600000x64.Idx) :
    val_main_v144 (F := Ideal) x0 x1 x2 x3 x4 x5 x6 x7 x8 x9 x10 j
      = edgeHidden1 (val_main_v131 (F := Ideal) x0 x1 x3 x4 x5 x6 x7 x8) (val_main_v138 (F := Ideal) x0 x1 x3 x4 x5 x6 x7 x8) x2
        (extractStridedSlice (⟨2, ![64, 64]⟩ : Shape) ![0, 0] x9 h0) (extractStridedSlice (⟨2, ![64, 64]⟩ : Shape) ![64, 0] x9 h64) (extractStridedSlice (⟨2, ![8, 64]⟩ : Shape) ![128, 0] x9 h128) x10 j := by
  rw [val_main_v144_apply, val_main_v143_apply, val_main_v140_apply, val_main_v142_apply, val_main_v141_apply,
    val_main_call3_v0_apply, val_main_call3_cst_apply]
  have e2 : idx_main_v141 (idx_main_v142 j) = ix1 (j 1) := idx1_ext _ _ rfl
  rw [e2]
  unfold val_main_v139
  generalize val_main_v131 (F := Ideal) x0 x1 x3 x4 x5 x6 x7 x8 = HU
  generalize val_main_v138 (F := Ideal) x0 x1 x3 x4 x5 x6 x7 x8 = HV
  rw [joined_rows HU HV x2 _ x9 h0 h64 h128 j]
  rfl

/-- The edge network's second hidden layer, entry by entry. -/
theorem hidden2 (x0 : (⟨S100000x32, .f32⟩ : BufTy).Contents (Elt Ideal)) (x1 : (⟨S2x1600000, .i32⟩ : BufTy).Contents (Elt Ideal)) (x2 : (⟨S1600000x8, .f32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S136x64, .f32⟩ : BufTy).Contents (Elt Ideal)) (x10 : (⟨S64, .f32⟩ : BufTy).Contents (Elt Ideal)) (x11 : (⟨S64x32, .f32⟩ : BufTy).Contents (Elt Ideal)) (x12 : (⟨S32, .f32⟩ : BufTy).Contents (Elt Ideal)) (h0 : S136x64.Slices ![0, 0] (⟨2, ![64, 64]⟩ : Shape)) (h64 : S136x64.Slices ![64, 0] (⟨2, ![64, 64]⟩ : Shape)) (h128 : S136x64.Slices ![128, 0] (⟨2, ![8, 64]⟩ : Shape)) (j : S1600000x32.Idx) :
    val_main_v149 (F := Ideal) x0 x1 x2 x3 x4 x5 x6 x7 x8 x9 x10 x11 x12 j
      = denseRelu (edgeHidden1 (val_main_v131 (F := Ideal) x0 x1 x3 x4 x5 x6 x7 x8) (val_main_v138 (F := Ideal) x0 x1 x3 x4 x5 x6 x7 x8) x2
        (extractStridedSlice (⟨2, ![64, 64]⟩ : Shape) ![0, 0] x9 h0) (extractStridedSlice (⟨2, ![64, 64]⟩ : Shape) ![64, 0] x9 h64) (extractStridedSlice (⟨2, ![8, 64]⟩ : Shape) ![128, 0] x9 h128) x10) x11 x12 j := by
  rw [val_main_v149_apply, val_main_v148_apply, val_main_v145_apply, val_main_v147_apply, val_main_v146_apply,
    val_main_call4_v0_apply, val_main_call4_cst_apply]
  have e2 : idx_main_v146 (idx_main_v147 j) = ix1 (j 1) := idx1_ext _ _ rfl
  rw [e2]
  have es : ∀ k : Fin 64, val_main_v144 (F := Ideal) x0 x1 x2 x3 x4 x5 x6 x7 x8 x9 x10 (lidx_main_v145 j k) * x11 (ridx_main_v145 j k)
      = edgeHidden1 (val_main_v131 (F := Ideal) x0 x1 x3 x4 x5 x6 x7 x8) (val_main_v138 (F := Ideal) x0 x1 x3 x4 x5 x6 x7 x8) x2
        (extractStridedSlice (⟨2, ![64, 64]⟩ : Shape) ![0, 0] x9 h0) (extractStridedSlice (⟨2, ![64, 64]⟩ : Shape) ![64, 0] x9 h64) (extractStridedSlice (⟨2, ![8, 64]⟩ : Shape) ![128, 0] x9 h128) x10 (ix2 (j 0) k) * x11 (ix2 k (j 1)) := fun k => by
    rw [show lidx_main_v145 j k = ix2 (n0 := 1600000) (n1 := 64) (j 0) k from idx2_ext _ _ rfl rfl,
      show ridx_main_v145 j k = ix2 (n0 := 64) (n1 := 32) k (j 1) from idx2_ext _ _ rfl rfl, hidden1 x0 x1 x2 x3 x4 x5 x6 x7 x8 x9 x10 h0 h64 h128] <;> rfl
  rw [Finset.sum_congr rfl fun k _ => es k]
  generalize val_main_v131 (F := Ideal) x0 x1 x3 x4 x5 x6 x7 x8 = HU
  generalize val_main_v138 (F := Ideal) x0 x1 x3 x4 x5 x6 x7 x8 = HV
  rfl

/-- The edge scores: the edge network on the gathered endpoint embeddings and the edge features. -/
theorem stage_out (x0 : (⟨S100000x32, .f32⟩ : BufTy).Contents (Elt Ideal)) (x1 : (⟨S2x1600000, .i32⟩ : BufTy).Contents (Elt Ideal)) (x2 : (⟨S1600000x8, .f32⟩ : BufTy).Contents (Elt Ideal)) (x3 : (⟨S32x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S136x64, .f32⟩ : BufTy).Contents (Elt Ideal)) (x10 : (⟨S64, .f32⟩ : BufTy).Contents (Elt Ideal)) (x11 : (⟨S64x32, .f32⟩ : BufTy).Contents (Elt Ideal)) (x12 : (⟨S32, .f32⟩ : BufTy).Contents (Elt Ideal)) (x13 : (⟨S32x1, .f32⟩ : BufTy).Contents (Elt Ideal)) (x14 : (⟨S1, .f32⟩ : BufTy).Contents (Elt Ideal)) (h0 : S136x64.Slices ![0, 0] (⟨2, ![64, 64]⟩ : Shape)) (h64 : S136x64.Slices ![64, 0] (⟨2, ![64, 64]⟩ : Shape)) (h128 : S136x64.Slices ![128, 0] (⟨2, ![8, 64]⟩ : Shape)) :
    val_main_v153 (F := Ideal) x0 x1 x2 x3 x4 x5 x6 x7 x8 x9 x10 x11 x12 x13 x14
      = edgeNet (val_main_v131 (F := Ideal) x0 x1 x3 x4 x5 x6 x7 x8) (val_main_v138 (F := Ideal) x0 x1 x3 x4 x5 x6 x7 x8) x2
          (extractStridedSlice (⟨2, ![64, 64]⟩ : Shape) ![0, 0] x9 h0) (extractStridedSlice (⟨2, ![64, 64]⟩ : Shape) ![64, 0] x9 h64) (extractStridedSlice (⟨2, ![8, 64]⟩ : Shape) ![128, 0] x9 h128)
          x10 x11 x12 x13 x14 := by
  funext j
  rw [val_main_v153_apply, val_main_v150_apply, val_main_v152_apply, val_main_v151_apply]
  have e2 : idx_main_v151 (idx_main_v152 j) = ix1 (j 1) :=
    idx1_ext _ _ (Fin.ext (by have h : (j 1).val < 1 := idx2_lt1 j; show 0 = (j 1).val; omega))
  rw [e2]
  have es : ∀ k : Fin 32, val_main_v149 (F := Ideal) x0 x1 x2 x3 x4 x5 x6 x7 x8 x9 x10 x11 x12 (lidx_main_v150 j k) * x13 (ridx_main_v150 j k)
      = denseRelu (edgeHidden1 (val_main_v131 (F := Ideal) x0 x1 x3 x4 x5 x6 x7 x8) (val_main_v138 (F := Ideal) x0 x1 x3 x4 x5 x6 x7 x8) x2
        (extractStridedSlice (⟨2, ![64, 64]⟩ : Shape) ![0, 0] x9 h0) (extractStridedSlice (⟨2, ![64, 64]⟩ : Shape) ![64, 0] x9 h64) (extractStridedSlice (⟨2, ![8, 64]⟩ : Shape) ![128, 0] x9 h128) x10) x11 x12 (ix2 (j 0) k) * x13 (ix2 k (j 1)) := fun k => by
    rw [show lidx_main_v150 j k = ix2 (n0 := 1600000) (n1 := 32) (j 0) k from idx2_ext _ _ rfl rfl,
      show ridx_main_v150 j k = ix2 (n0 := 32) (n1 := 1) k (j 1) from idx2_ext _ _ rfl rfl, hidden2 x0 x1 x2 x3 x4 x5 x6 x7 x8 x9 x10 x11 x12 h0 h64 h128] <;> rfl
  rw [Finset.sum_congr rfl fun k _ => es k]
  generalize val_main_v131 (F := Ideal) x0 x1 x3 x4 x5 x6 x7 x8 = HU
  generalize val_main_v138 (F := Ideal) x0 x1 x3 x4 x5 x6 x7 x8 = HV
  rfl

end Cert.RefStages

end
-- ==== Proof.Chain.lean ====
/-
  The kernel program's result, read through its five regions and the host operations between them, is the
  reference's last stage of the same arguments.

  Going down the program: region 0 leaves HW₀ = X·W₀ (twice); the host gathers, scales and scatter-adds it into
  AGG₀ — the same operations the reference applies to its own product, so equal arrays in give equal arrays out;
  region 1 turns (HW₀, AGG₀, d², b₀, W₁) into HW₁, the reference's next product; and so on through the three
  layers; the last region is the edge network of the two gathered embeddings, the edge features and the weights.
  Each region's output is the stage function of Stages of the arrays it found (Region0 … Region4); each stage
  function of the reference's earlier stages is the reference's next stage (RefStages); the buffers a region
  finds are read back through the host operations in Walk.
-/
import proofs.«130208_j24927990186114_2_alg».proof.Proof.Region0
import proofs.«130208_j24927990186114_2_alg».proof.Proof.Region1
import proofs.«130208_j24927990186114_2_alg».proof.Proof.Region2
import proofs.«130208_j24927990186114_2_alg».proof.Proof.Region3
import proofs.«130208_j24927990186114_2_alg».proof.Proof.Region4
import proofs.«130208_j24927990186114_2_alg».proof.Proof.Walk
import proofs.«130208_j24927990186114_2_alg».proof.Proof.RefStages

set_option maxRecDepth 16384

noncomputable section

namespace Cert.KernelIdeal.Chain

open Cert.KernelIdeal Cert.KernelIdeal.Gen Cert.Stages
open Idealize.ShloMosaic Idealize.ShloMosaic.TcCoe Idealize.SL.Sem
open Cert.ReferenceIdeal.Read (val_main_v11 val_main_v39 val_main_v41 val_main_v49 val_main_v77 val_main_v79 val_main_v87 val_main_v115 val_main_v117 val_main_v124 val_main_v131 val_main_v138 val_main_v153 val_main_v40 val_main_v78 val_main_v116)

/-- The squared inverse root degrees, as a column: the reference computes it once per layer, by the same
    operations each time. -/
theorem degCol_1 (x : (⟨Cert.ReferenceIdeal.S2x1600000, .i32⟩ : BufTy).Contents (Elt Ideal)) :
    val_main_v79 (F := Ideal) x = val_main_v41 (F := Ideal) x := by
  unfold val_main_v79 val_main_v78 val_main_v41 val_main_v40
  rfl
theorem degCol_2 (x : (⟨Cert.ReferenceIdeal.S2x1600000, .i32⟩ : BufTy).Contents (Elt Ideal)) :
    val_main_v117 (F := Ideal) x = val_main_v41 (F := Ideal) x := by
  unfold val_main_v117 val_main_v116 val_main_v41 val_main_v40
  rfl

variable (m : (ℓ : Loc nD τ sig) → Buf (Elt Ideal) ℓ) (ρ : Dev nD → PrngReg) (c : Dev nD)

/-- After region 0 the first product array is the reference's first product. -/
theorem hw0 : W2 m ρ c (Proc.devRef .tc main_v28_0) = val_main_v11 (F := Ideal) (m ((c : Thread nD τ).loc main_arg0)) (m ((c : Thread nD τ).loc main_arg3)) := by
  rw [RefStages.stage_hw0]
  refine (W2_arr m ρ c 2).trans ?_
  refine (Region0.final2 (V1 m ρ) c).trans ?_
  rw [Walk.V1_arg0, Walk.V1_arg3]
/-- And so is its second copy. -/
theorem hw0' : W2 m ρ c (Proc.devRef .tc main_v28_1) = val_main_v11 (F := Ideal) (m ((c : Thread nD τ).loc main_arg0)) (m ((c : Thread nD τ).loc main_arg3)) := by
  rw [RefStages.stage_hw0]
  refine (W2_arr m ρ c 3).trans ?_
  refine (Region0.final3 (V1 m ρ) c).trans ?_
  rw [Walk.V1_arg0, Walk.V1_arg3]

/-- After region 1 the output array is the reference's second product. -/
theorem hw1 : W4 m ρ c (Proc.devRef .tc main_v43_0) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [RefStages.stage_hw1]
  refine (W4_arr m ρ c 5).trans ?_
  refine (Region1.final5 (V3 m ρ) c).trans ?_
  rw [Walk.V3_v28_0, hw0, Walk.agg0 m ρ c (hw0' m ρ c), Walk.V3_v12, Walk.V3_arg4, Walk.V3_arg5]
theorem hw1' : W4 m ρ c (Proc.devRef .tc main_v43_1) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [RefStages.stage_hw1]
  refine (W4_arr m ρ c 6).trans ?_
  refine (Region1.final6 (V3 m ρ) c).trans ?_
  rw [Walk.V3_v28_0, hw0, Walk.agg0 m ρ c (hw0' m ρ c), Walk.V3_v12, Walk.V3_arg4, Walk.V3_arg5]

/-- After region 2 the output array is the reference's third product. -/
theorem hw2 : W6 m ρ c (Proc.devRef .tc main_v58_0) = val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [RefStages.stage_hw2, degCol_1]
  refine (W6_arr m ρ c 5).trans ?_
  refine (Region2.final5 (V5 m ρ) c).trans ?_
  rw [Walk.V5_v43_0, hw1, Walk.agg1 m ρ c (hw1' m ρ c), Walk.V5_v12, Walk.V5_arg6, Walk.V5_arg7]
theorem hw2' : W6 m ρ c (Proc.devRef .tc main_v58_1) = val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [RefStages.stage_hw2, degCol_1]
  refine (W6_arr m ρ c 6).trans ?_
  refine (Region2.final6 (V5 m ρ) c).trans ?_
  rw [Walk.V5_v43_0, hw1, Walk.agg1 m ρ c (hw1' m ρ c), Walk.V5_v12, Walk.V5_arg6, Walk.V5_arg7]

/-- After region 3 the output array is the reference's node embedding. -/
theorem emb : W8 m ρ c (Proc.devRef .tc main_v73) = val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [RefStages.stage_h3, degCol_2]
  refine (W8_arr m ρ c 4).trans ?_
  refine (Region3.final4 (V7 m ρ) c).trans ?_
  rw [Walk.V7_v58_0, hw2, Walk.agg2 m ρ c (hw2' m ρ c), Walk.V7_v12, Walk.V7_arg8]

/-- After region 4 the result array is the reference's result. -/
theorem result : W10 m ρ c (Proc.devRef .tc main_v92) = val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [RefStages.stage_out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) slices_S136x64_S64x64_0_0 slices_S136x64_S64x64_64_0 slices_S136x64_S8x64_128_0]
  refine (W10_arr m ρ c 11).trans ?_
  refine (Region4.final11 (V9 m ρ) c).trans ?_
  rw [Walk.gu m ρ c (emb m ρ c), Walk.gv m ρ c (emb m ρ c), Walk.V9_v88, Walk.V9_v89, Walk.V9_v90, Walk.V9_v91,
    Walk.V9_arg10, Walk.V9_arg11, Walk.V9_arg12, Walk.V9_arg13, Walk.V9_arg14]

end Cert.KernelIdeal.Chain

end
-- ==== Proof.lean ====
/-
  An edge-scoring graph network: three graph convolution layers over 100000 nodes (each a linear map, a
  degree-normalised neighbour sum, a self-loop term, a bias and a relu), then a three-layer perceptron on every one
  of 1600000 edges fed with the two endpoint embeddings and the edge's features.

  The kernel program computes the dense parts in five row-blocked regions (the first linear map; two fused
  "finish layer l, apply layer l+1's linear map" regions; the last layer's finish; the edge perceptron with its
  first layer split into the three row blocks of its weight matrix) and leaves the gathers and scatter-adds to the
  host; the reference computes everything on the host. On the extended reals a change of float format is the
  identity, a blocked product is the whole product's rows, and a sum over 136 columns is the sum of its three
  parts, so the two programs compute one function of the arguments: Stages names the dense stages, Region0 … Region4
  read each region's output array as its stage of the arrays the region found, RefStages reads the reference's
  stages as the same functions, Walk reads the buffers between the regions, Chain joins them, KernelRun restates
  the kernel program's run with its result buffer named. No law used needs finiteness: only commutativity and
  associativity of addition on the extended reals, so the precondition is never opened.
  The three frames are the generated ones (the reference's is its generated run with the result dropped); the ideal
  pass rewrote nothing, so the preservation claim is trivial.
-/
import proofs.«130208_j24927990186114_2_alg».proof.Defs
import proofs.«130208_j24927990186114_2_alg».proof.Proof.Gen.Kernel
import proofs.«130208_j24927990186114_2_alg».proof.Proof.Gen.Kernel.Skeleton
import proofs.«130208_j24927990186114_2_alg».proof.Proof.Gen.Kernel.Launch
import proofs.«130208_j24927990186114_2_alg».proof.Proof.Gen.Kernel.Points
import proofs.«130208_j24927990186114_2_alg».proof.Proof.Gen.Kernel.Frame
import proofs.«130208_j24927990186114_2_alg».proof.Proof.Gen.KernelIdeal
import proofs.«130208_j24927990186114_2_alg».proof.Proof.Gen.KernelIdeal.Skeleton
import proofs.«130208_j24927990186114_2_alg».proof.Proof.Gen.KernelIdeal.Launch
import proofs.«130208_j24927990186114_2_alg».proof.Proof.Gen.KernelIdeal.Points
import proofs.«130208_j24927990186114_2_alg».proof.Proof.Gen.KernelIdeal.Frame
import proofs.«130208_j24927990186114_2_alg».proof.Proof.Gen.ReferenceIdeal
import proofs.«130208_j24927990186114_2_alg».proof.Proof.Gen.Pre_finite_inputs
import proofs.«130208_j24927990186114_2_alg».proof.Proof.Gen.ReferenceIdeal.Run
import proofs.«130208_j24927990186114_2_alg».proof.Proof.Gen.ReferenceIdeal.Read
import proofs.«130208_j24927990186114_2_alg».proof.Proof.KernelRun
import proofs.«130208_j24927990186114_2_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) arguments in their result buffers. -/
theorem algebraic : Cert.algebraic_KernelIdeal_ReferenceIdeal := by
  intro m ρ m' ρ' _ hagree
  refine ⟨fun c => Cert.ReferenceIdeal.Read.val_main_v153 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c => ⟨(h c).1.trans (Cert.KernelIdeal.Chain.result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v153_eq]
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
